-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x16 : Shape := ⟨2, ![64, 16]⟩
abbrev S16 : Shape := ⟨1, ![16]⟩
abbrev S16x16 : Shape := ⟨2, ![16, 16]⟩
abbrev S1000000 : Shape := ⟨1, ![1000000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg4 : FVec F S16 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S50000x64 .f32) (main_arg1 : FVec F S64x16 .f32) (main_arg2 : FVec F S16 .f32) (main_arg3 : FVec F S16x16 .f32) (main_arg4 : FVec F S16 .f32) (main_arg5 : IVec S1000000 32) (main_arg6 : IVec S1000000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x16 .f32 := Host.absf main_arg1
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg3
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg4 main_v13 main_v16
-- ==== Kernel.lean ====
abbrev S50000x64 : Shape := ⟨2, ![50000, 64]⟩
abbrev S64x16 : Shape := ⟨2, ![64, 16]⟩
abbrev S16 : Shape := ⟨1, ![16]⟩
abbrev S16x16 : Shape := ⟨2, ![16, 16]⟩
abbrev S1000000 : Shape := ⟨1, ![1000000]⟩
abbrev S_ : Shape := ⟨0, ![]⟩
abbrev S50000 : Shape := ⟨1, ![50000]⟩
abbrev S1000000x1 : Shape := ⟨2, ![1000000, 1]⟩
abbrev S50000x1 : Shape := ⟨2, ![50000, 1]⟩
abbrev S50000x16 : Shape := ⟨2, ![50000, 16]⟩
abbrev S10000x64 : Shape := ⟨2, ![10000, 64]⟩
abbrev S10000x16 : Shape := ⟨2, ![10000, 16]⟩
abbrev S1000000x16 : Shape := ⟨2, ![1000000, 16]⟩
abbrev S1x16 : Shape := ⟨2, ![1, 16]⟩
abbrev S5000x16 : Shape := ⟨2, ![5000, 16]⟩
abbrev S5000x1 : Shape := ⟨2, ![5000, 1]⟩

abbrev nBuf : Space → Nat
  | .hbm => 51
  | .vmem => 24
  | .smem => 0
  | _ => 0

abbrev bufTy : (tb : Table) → Fin (tcTables nBuf tb) → BufTy
  | .hbm, ⟨0, _⟩ => ⟨S50000x64, .f32⟩
  | .hbm, ⟨1, _⟩ => ⟨S64x16, .f32⟩
  | .hbm, ⟨2, _⟩ => ⟨S16, .f32⟩
  | .hbm, ⟨3, _⟩ => ⟨S16x16, .f32⟩
  | .hbm, ⟨4, _⟩ => ⟨S16, .f32⟩
  | .hbm, ⟨5, _⟩ => ⟨S1000000, .i32⟩
  | .hbm, ⟨6, _⟩ => ⟨S1000000, .i32⟩
  | .hbm, ⟨7, _⟩ => ⟨S_, .f32⟩
  | .hbm, ⟨8, _⟩ => ⟨S1000000, .f32⟩
  | .hbm, ⟨9, _⟩ => ⟨S_, .f32⟩
  | .hbm, ⟨10, _⟩ => ⟨S50000, .f32⟩
  | .hbm, ⟨11, _⟩ => ⟨S1000000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000x1, .f32⟩
  | .hbm, ⟨20, _⟩ => ⟨S50000x16, .f32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x16, .f32⟩
  | .hbm, ⟨30, _⟩ => ⟨S_, .f32⟩
  | .hbm, ⟨31, _⟩ => ⟨S50000x16, .f32⟩
  | .hbm, ⟨32, _⟩ => ⟨S1000000x1, .i32⟩
  | .hbm, ⟨33, _⟩ => ⟨S50000x16, .f32⟩
  | .hbm, ⟨34, _⟩ => ⟨S1x16, .f32⟩
  | .hbm, ⟨35, _⟩ => ⟨S50000x16, .f32⟩
  | .hbm, ⟨36, _⟩ => ⟨S_, .i32⟩
  | .hbm, ⟨37, _⟩ => ⟨S1000000, .i32⟩
  | .hbm, ⟨38, _⟩ => ⟨S1000000, .i1⟩
  | .hbm, ⟨39, _⟩ => ⟨S_, .i32⟩
  | .hbm, ⟨40, _⟩ => ⟨S1000000, .i32⟩
  | .hbm, ⟨41, _⟩ => ⟨S1000000, .i32⟩
  | .hbm, ⟨42, _⟩ => ⟨S1000000, .i32⟩
  | .hbm, ⟨43, _⟩ => ⟨S1000000x1, .i32⟩
  | .hbm, ⟨44, _⟩ => ⟨S1000000x16, .f32⟩
  | .hbm, ⟨45, _⟩ => ⟨S_, .f32⟩
  | .hbm, ⟨46, _⟩ => ⟨S50000x16, .f32⟩
  | .hbm, ⟨47, _⟩ => ⟨S1000000x1, .i32⟩
  | .hbm, ⟨48, _⟩ => ⟨S50000x16, .f32⟩
  | .hbm, ⟨49, _⟩ => ⟨S1x16, .f32⟩
  | .hbm, ⟨50, _⟩ => ⟨S50000x16, .f32⟩
  | .local _ .vmem, ⟨0, _⟩ => ⟨S10000x64, .f32⟩
  | .local _ .vmem, ⟨1, _⟩ => ⟨S10000x64, .f32⟩
  | .local _ .vmem, ⟨2, _⟩ => ⟨S64x16, .f32⟩
  | .local _ .vmem, ⟨3, _⟩ => ⟨S10000x16, .f32⟩
  | .local _ .vmem, ⟨4, _⟩ => ⟨S10000x16, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x1, .f32⟩
  | .local _ .vmem, ⟨10, _⟩ => ⟨S5000x1, .f32⟩
  | .local _ .vmem, ⟨11, _⟩ => ⟨S1x16, .f32⟩
  | .local _ .vmem, ⟨12, _⟩ => ⟨S5000x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S5000x16, .f32⟩
  | .local _ .vmem, ⟨18, _⟩ => ⟨S5000x1, .f32⟩
  | .local _ .vmem, ⟨19, _⟩ => ⟨S5000x1, .f32⟩
  | .local _ .vmem, ⟨20, _⟩ => ⟨S16x16, .f32⟩
  | .local _ .vmem, ⟨21, _⟩ => ⟨S1x16, .f32⟩
  | .local _ .vmem, ⟨22, _⟩ => ⟨S5000x16, .f32⟩
  | .local _ .vmem, ⟨23, _⟩ => ⟨S5000x16, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S16x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1000000 : S_.BroadcastsInDim S1000000 (![] : Fin 0 → Fin S1000000.rank)
  bcast_S_S50000 : S_.BroadcastsInDim S50000 (![] : Fin 0 → Fin S50000.rank)
  bcast_S1000000_S1000000x1_0 : S1000000.BroadcastsInDim S1000000x1 (![0] : Fin 1 → Fin S1000000x1.rank)
  shapeCasts_S50000_S50000x1 : S50000.ShapeCasts S50000x1
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x16_S64x16_0_0 : ∀ a, (![0, 0] : Fin 2 → Nat) a + S64x16.size a ≤ S64x16.size a
  h_S64x16 : 0 < S64x16.numel
  inb_S10000x16_S10000x16_0_0 : ∀ a, (![0, 0] : Fin 2 → Nat) a + S10000x16.size a ≤ S10000x16.size a
  h_S10000x16 : 0 < S10000x16.numel
  bcast_S_S50000x16 : S_.BroadcastsInDim S50000x16 (![] : Fin 0 → Fin S50000x16.rank)
  shapeCasts_S16_S1x16 : S16.ShapeCasts S1x16
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x16_S16x16_0_0 : ∀ a, (![0, 0] : Fin 2 → Nat) a + S16x16.size a ≤ S16x16.size a
  h_S16x16 : 0 < S16x16.numel
  scatter_S50000_S1000000x1_S1000000_n_0_0_1_wf : ScatterDims.WF S50000 S1000000x1 S1000000 [] [0] [0] 1
  dot_S10000x64_S64x16_S10000x16_1_0_0_1_n_n_wf : DotDims.WF S10000x64 S64x16 S10000x16 [1] [0] [0] [1] [] []
  gather_S50000x16_S1000000x1_S1000000x16_1_0_n_n_0_1_116_wf : GatherDims.WF S50000x16 S1000000x1 S1000000x16 [1] [0] [] [0] [] 1 ![1, 16]
  scatter_S50000x16_S1000000x1_S1000000x16_1_0_0_1_wf : ScatterDims.WF S50000x16 S1000000x1 S1000000x16 [1] [0] [0] 1
  dot_S5000x16_S16x16_S5000x16_1_0_0_1_n_n_wf : DotDims.WF S5000x16 S16x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x16.size a ≤ S64x16.size a
  hwx0_1 : ∀ i : grid0.Coords, EltTy.bits .f32 = 32 ∨ (Rect.block (s := S64x16) S64x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S50000x16.size a
  hwx0_2 : ∀ i : grid0.Coords, EltTy.bits .f32 = 32 ∨ (Rect.block (s := S50000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S50000x16.size a
  hwx1_0 : ∀ i : grid1.Coords, EltTy.bits .f32 = 32 ∨ (Rect.block (s := S50000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S50000x16.size a
  hwx1_1 : ∀ i : grid1.Coords, EltTy.bits .f32 = 32 ∨ (Rect.block (s := S50000x16) S5000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x16.size a ≤ S50000x16.size a
  hwx1_4 : ∀ i : grid1.Coords, EltTy.bits .f32 = 32 ∨ (Rect.block (s := S50000x16) S5000x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S50000x16.size a
  hwx2_0 : ∀ i : grid2.Coords, EltTy.bits .f32 = 32 ∨ (Rect.block (s := S50000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x16.size a ≤ S50000x16.size a
  hwx2_1 : ∀ i : grid2.Coords, EltTy.bits .f32 = 32 ∨ (Rect.block (s := S50000x16) S5000x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x16.size a ≤ S16x16.size a
  hwx2_3 : ∀ i : grid2.Coords, EltTy.bits .f32 = 32 ∨ (Rect.block (s := S16x16) S16x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x16.size a ≤ S50000x16.size a
  hwx2_5 : ∀ i : grid2.Coords, EltTy.bits .f32 = 32 ∨ (Rect.block (s := S50000x16) S5000x16.size (cc2_transform_5 i) (hinb2_5 i)).WholeWords (EltTy.packing .f32)

variable [Facts₀]

def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def gather_S50000x16_S1000000x1_S1000000x16_1_0_n_n_0_1_116 : GatherDims S50000x16 S1000000x1 S1000000x16 where
  offsetDims := [1]
  collapsedSliceDims := [0]
  operandBatchingDims := []
  startIndicesBatchingDims := []
  startIndexMap := [0]
  indexVectorDim := 1
  sliceSizes := ![1, 16]
  wf := gather_S50000x16_S1000000x1_S1000000x16_1_0_n_n_0_1_116_wf
def scatter_S50000x16_S1000000x1_S1000000x16_1_0_0_1 : ScatterDims S50000x16 S1000000x1 S1000000x16 where
  updateWindowDims := [1]
  insertedWindowDims := [0]
  scatterDimsToOperandDims := [0]
  indexVectorDim := 1
  wf := scatter_S50000x16_S1000000x1_S1000000x16_1_0_0_1_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v9) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S5000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v21) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S5000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S16x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v32) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v33) S5000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x64 : Shape := ⟨2, ![50000, 64]⟩
abbrev S64x16 : Shape := ⟨2, ![64, 16]⟩
abbrev S16 : Shape := ⟨1, ![16]⟩
abbrev S16x16 : Shape := ⟨2, ![16, 16]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S50000 : Shape := ⟨1, ![50000]⟩
abbrev S50000x1 : Shape := ⟨2, ![50000, 1]⟩
abbrev S50000x16 : Shape := ⟨2, ![50000, 16]⟩
abbrev S1x16 : Shape := ⟨2, ![1, 16]⟩
abbrev S1000000x16 : Shape := ⟨2, ![1000000, 16]⟩

abbrev nBuf : Space → Nat
  | .hbm => 70
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S64x16, .f32⟩
  | .hbm, ⟨2, _⟩ => ⟨S16, .f32⟩
  | .hbm, ⟨3, _⟩ => ⟨S16x16, .f32⟩
  | .hbm, ⟨4, _⟩ => ⟨S16, .f32⟩
  | .hbm, ⟨5, _⟩ => ⟨S1000000, .i32⟩
  | .hbm, ⟨6, _⟩ => ⟨S1000000, .i32⟩
  | .hbm, ⟨7, _⟩ => ⟨S_, .i32⟩
  | .hbm, ⟨8, _⟩ => ⟨S1000000, .i32⟩
  | .hbm, ⟨9, _⟩ => ⟨S1000000, .i1⟩
  | .hbm, ⟨10, _⟩ => ⟨S_, .i32⟩
  | .hbm, ⟨11, _⟩ => ⟨S1000000, .i32⟩
  | .hbm, ⟨12, _⟩ => ⟨S1000000, .i32⟩
  | .hbm, ⟨13, _⟩ => ⟨S1000000, .i32⟩
  | .hbm, ⟨14, _⟩ => ⟨S1000000x1, .i32⟩
  | .hbm, ⟨15, _⟩ => ⟨S1000000x64, .f32⟩
  | .hbm, ⟨16, _⟩ => ⟨S_, .f32⟩
  | .hbm, ⟨17, _⟩ => ⟨S50000x64, .f32⟩
  | .hbm, ⟨18, _⟩ => ⟨S1000000x1, .i32⟩
  | .hbm, ⟨19, _⟩ => ⟨S50000x64, .f32⟩
  | .hbm, ⟨20, _⟩ => ⟨S_, .f32⟩
  | .hbm, ⟨21, _⟩ => ⟨S1000000, .f32⟩
  | .hbm, ⟨22, _⟩ => ⟨S_, .f32⟩
  | .hbm, ⟨23, _⟩ => ⟨S50000, .f32⟩
  | .hbm, ⟨24, _⟩ => ⟨S1000000x1, .i32⟩
  | .hbm, ⟨25, _⟩ => ⟨S50000, .f32⟩
  | .hbm, ⟨26, _⟩ => ⟨S50000x64, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x64, .f32⟩
  | .hbm, ⟨32, _⟩ => ⟨S50000x64, .f32⟩
  | .hbm, ⟨33, _⟩ => ⟨S50000x16, .f32⟩
  | .hbm, ⟨34, _⟩ => ⟨S1x16, .f32⟩
  | .hbm, ⟨35, _⟩ => ⟨S50000x16, .f32⟩
  | .hbm, ⟨36, _⟩ => ⟨S50000x16, .f32⟩
  | .hbm, ⟨37, _⟩ => ⟨S_, .f32⟩
  | .hbm, ⟨38, _⟩ => ⟨S50000x16, .f32⟩
  | .hbm, ⟨39, _⟩ => ⟨S50000x16, .f32⟩
  | .hbm, ⟨40, _⟩ => ⟨S_, .i32⟩
  | .hbm, ⟨41, _⟩ => ⟨S1000000, .i32⟩
  | .hbm, ⟨42, _⟩ => ⟨S1000000, .i1⟩
  | .hbm, ⟨43, _⟩ => ⟨S_, .i32⟩
  | .hbm, ⟨44, _⟩ => ⟨S1000000, .i32⟩
  | .hbm, ⟨45, _⟩ => ⟨S1000000, .i32⟩
  | .hbm, ⟨46, _⟩ => ⟨S1000000, .i32⟩
  | .hbm, ⟨47, _⟩ => ⟨S1000000x1, .i32⟩
  | .hbm, ⟨48, _⟩ => ⟨S1000000x16, .f32⟩
  | .hbm, ⟨49, _⟩ => ⟨S_, .f32⟩
  | .hbm, ⟨50, _⟩ => ⟨S50000x16, .f32⟩
  | .hbm, ⟨51, _⟩ => ⟨S1000000x1, .i32⟩
  | .hbm, ⟨52, _⟩ => ⟨S50000x16, .f32⟩
  | .hbm, ⟨53, _⟩ => ⟨S_, .f32⟩
  | .hbm, ⟨54, _⟩ => ⟨S1000000, .f32⟩
  | .hbm, ⟨55, _⟩ => ⟨S_, .f32⟩
  | .hbm, ⟨56, _⟩ => ⟨S50000, .f32⟩
  | .hbm, ⟨57, _⟩ => ⟨S1000000x1, .i32⟩
  | .hbm, ⟨58, _⟩ => ⟨S50000, .f32⟩
  | .hbm, ⟨59, _⟩ => ⟨S50000x16, .f32⟩
  | .hbm, ⟨60, _⟩ => ⟨S_, .f32⟩
  | .hbm, ⟨61, _⟩ => ⟨S50000, .f32⟩
  | .hbm, ⟨62, _⟩ => ⟨S50000, .f32⟩
  | .hbm, ⟨63, _⟩ => ⟨S50000x1, .f32⟩
  | .hbm, ⟨64, _⟩ => ⟨S50000x16, .f32⟩
  | .hbm, ⟨65, _⟩ => ⟨S50000x16, .f32⟩
  | .hbm, ⟨66, _⟩ => ⟨S50000x16, .f32⟩
  | .hbm, ⟨67, _⟩ => ⟨S1x16, .f32⟩
  | .hbm, ⟨68, _⟩ => ⟨S50000x16, .f32⟩
  | .hbm, ⟨69, _⟩ => ⟨S50000x16, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S50000x16 : S_.BroadcastsInDim S50000x16 (![] : Fin 0 → Fin S50000x16.rank)
  bcast_S50000x1_S50000x16_0_1 : S50000x1.BroadcastsInDim S50000x16 (![0, 1] : Fin 2 → Fin S50000x16.rank)
  gather_S50000x64_S1000000x1_S1000000x64_1_0_n_n_0_1_164_wf : GatherDims.WF S50000x64 S1000000x1 S1000000x64 [1] [0] [] [0] [] 1 ![1, 64]
  scatter_S50000x64_S1000000x1_S1000000x64_1_0_0_1_wf : ScatterDims.WF S50000x64 S1000000x1 S1000000x64 [1] [0] [0] 1
  scatter_S50000_S1000000x1_S1000000_n_0_0_1_wf : ScatterDims.WF S50000 S1000000x1 S1000000 [] [0] [0] 1
  dot_S50000x64_S64x16_S50000x16_1_0_0_1_n_n_wf : DotDims.WF S50000x64 S64x16 S50000x16 [1] [0] [0] [1] [] []
  gather_S50000x16_S1000000x1_S1000000x16_1_0_n_n_0_1_116_wf : GatherDims.WF S50000x16 S1000000x1 S1000000x16 [1] [0] [] [0] [] 1 ![1, 16]
  scatter_S50000x16_S1000000x1_S1000000x16_1_0_0_1_wf : ScatterDims.WF S50000x16 S1000000x1 S1000000x16 [1] [0] [0] 1
  dot_S50000x16_S16x16_S50000x16_1_0_0_1_n_n_wf : DotDims.WF S50000x16 S16x16 S50000x16 [1] [0] [0] [1] [] []

variable [Facts₀]

def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf
def gather_S50000x16_S1000000x1_S1000000x16_1_0_n_n_0_1_116 : GatherDims S50000x16 S1000000x1 S1000000x16 where
  offsetDims := [1]
  collapsedSliceDims := [0]
  operandBatchingDims := []
  startIndicesBatchingDims := []
  startIndexMap := [0]
  indexVectorDim := 1
  sliceSizes := ![1, 16]
  wf := gather_S50000x16_S1000000x1_S1000000x16_1_0_n_n_0_1_116_wf
def scatter_S50000x16_S1000000x1_S1000000x16_1_0_0_1 : ScatterDims S50000x16 S1000000x1 S1000000x16 where
  updateWindowDims := [1]
  insertedWindowDims := [0]
  scatterDimsToOperandDims := [0]
  indexVectorDim := 1
  wf := scatter_S50000x16_S1000000x1_S1000000x16_1_0_0_1_wf
def dot_S50000x16_S16x16_S50000x16_1_0_0_1_n_n : DotDims S50000x16 S16x16 S50000x16 where
  lhsContracting := [1]
  rhsContracting := [0]
  lhsNonContracting := [0]
  rhsNonContracting := [1]
  lhsBatch := []
  rhsBatch := []
  wf := dot_S50000x16_S16x16_S50000x16_1_0_0_1_n_n_wf

class Facts : Prop extends Facts₀ where

variable [Facts]
-- ==== Proof.KernelRun.lean ====
/-
  The idealized kernel's run with its result kept.

  The program is three pipelined regions among stretches of host operations. Its run is a fold of the device's
  buffer contents through the six segments; the last contents are `W6`. Every weakly fair execution terminates
  without a fault in a state whose unscoped buffers hold exactly those contents: in particular the result buffer
  holds `W6` at its reference, and each argument array holds what it was launched with (no segment writes one).
-/
import proofs.«141278_j91018946937618_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the argument arrays end as launched. -/
theorem run_result : θ_run defs (onTc (τ := τ) (main (F := F))) ⟨m, fun _ => 0, ρ⟩ (fun r => ∀ c : Dev nD,
      r.2.mem ((c.tc : Thread nD τ).loc main_v33) = W6 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v33 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.RunValue

end
-- ==== Proof.LibColumn.lean ====
/-
  Layout operations read at an index given by coordinates: the KEEP-DIMS COLUMN forms, beside the library's
  leading-unit-axis forms (Lib/ValueLayout.lean). A sum taken with its axis kept leaves a trailing unit axis: a vector
  `[a]` is cast to the column `[a, 1]`, a matrix `[a, b]` to `[a, b, 1]`, and such a column or trailing-unit block is then
  broadcast along the unit axis (`[a, 1]` to `[a, b]`, `[a, b, 1]` to `[a, b, c]`); a `[1, b, c]` block is broadcast down a
  new leading extent (`[1, b, c]` to `[a, b, c]`). Each lemma reads one such operation at an index written `ixN …`
  (Lib/ValueIdx.lean) as the operand at the index with the unit coordinate dropped or set to `0`; each is the parent
  lemma of Lib/Pipeline/Value.lean (`shapeCast_apply`, `broadcastTo_apply`) with the coordinates' arithmetic done.
-/
import Idealize.ShloMosaic.Lib.ValueLayout

namespace Cert.LibColumn

open Idealize.ShloMosaic Idealize.ShloMosaic.ValueIdx

variable {α : Type}

/-! ## A trailing unit axis added by a shape cast -/

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, b]` array cast to `[a, b, 1]` reads, at `(i, j, u)`, the operand at `(i, j)`, whatever the unit coordinate `u`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## A unit axis broadcast -/

/-- A column `[a, 1]` broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, 1]` block broadcast to `[a, b, c]` reads, at `(i, j, e)`, the block at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (e : Fin c) :
    broadcastTo ⟨3, ![a, b, c]⟩ v h (ix3 i j e) = v (ix3 i j (0 : Fin 1)) := by
  refine broadcastTo_apply v h (ix3 i j e) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` block broadcast to `[a, b, c]` reads, at `(p, i, j)`, the block at `(0, i, j)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

end Cert.LibColumn
-- ==== Proof.LibDenseEntry.lean ====
/-
  The plain matrix product [M, K] × [K, N] → [M, N] over the extended reals, read at an entry, for any extents and
  any dimension record with the plain axis lists: entry (p, n) is ∑ k, l (p, k) · r (k, n) — for the matrix unit's
  product into an accumulator that is zero everywhere, and for the host's product.
-/
import Idealize.ShloMosaic.PureOps.Ideal.Laws
import Idealize.ShloMosaic.Lib.ValueIdx

noncomputable section

namespace Cert.LibDenseEntry

open Idealize.ShloMosaic Idealize.ShloMosaic.ValueIdx

variable {M K N : ℕ}

/-- [M, K] × [K, N] → [M, N], the left operand's second axis contracted with the right operand's first:
    entry (p, n) is ∑ k, l (p, k) · r (k, n). -/
theorem matmul_plain_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

/-- The host's product of the same shape, read the same way. -/
theorem dotGeneral_plain_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (p : Fin M) (n : Fin N) :
    FloatOps.dotGeneral d prec sched l r (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.dotGeneral_apply d prec sched l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

end Cert.LibDenseEntry

end
-- ==== Proof.KProject.lean ====
/-
  The first region (projection), as one function of the arrays it finds.

  The region walks the 50000 rows in five blocks of 10000. At a point it holds a block of the feature rows x and the
  whole weight matrix w and writes back the block's product with w: entry (r, j) of the result is
  ∑ k, x (r, k) · w (k, j), which depends only on row r of x. (Rounding the operands to a narrower format on the way
  into the matrix unit is the identity over the extended reals.) The five blocks tile the array.
-/
import proofs.«141278_j91018946937618_2_alg».proof.Proof.Gen.KernelIdeal.Frame
import proofs.«141278_j91018946937618_2_alg».proof.Proof.LibColumn
import proofs.«141278_j91018946937618_2_alg».proof.Proof.LibDenseEntry
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Project

open Cert.KernelIdeal Cert.KernelIdeal.Gen
open Idealize.ShloMosaic Idealize.ShloMosaic.TcCoe Idealize.ShloMosaic.ValueIdx Idealize.SL.Sem
open Idealize.ShloMosaic.Pipeline (Dat)

/-- Entry (p, q) of the body's stored value: the block's row p against column q of the weights. -/
theorem pay_apply (x0 : Vec Ideal S10000x64 .f32) (x1 : Vec Ideal S64x16 .f32) (p : Fin 10000) (q : Fin 16) :
    k0_pay1 x0 x1 (ix2 p q) = ∑ k : Fin 64, x0 (ix2 p k) * x1 (ix2 k q) := by
  unfold k0_pay1
  exact Cert.LibDenseEntry.matmul_plain_zero_apply dot_S10000x64_S64x16_S10000x16_1_0_0_1_n_n rfl rfl rfl rfl rfl rfl none
    (truncf .bf16 x0 bitsLt_bf16_f32) (truncf .bf16 x1 bitsLt_bf16_f32) p q

/-! ## Where each window's block sits at a point -/

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem N_eq : cfg0.N = 5 := N_0

/-- Row `p` of block `t` is row `10000 t + p` of the array. -/
def row (t : Fin cfg0.N) (p : Fin 10000) : Fin 50000 :=
  ⟨t.val * 10000 + p.val, by have := t.isLt; have := N_eq; have := p.isLt; omega⟩

variable (V : (c : Dev nD) → (b : Ref sig .tc) → Buf (Elt Ideal) ((c : Thread nD τ).loc b))

theorem blk_0 (c : Dev nD) (t : Fin cfg0.N) (p : Fin 10000) (k : Fin 64) :
    iblk0 V c 0 t (ix2 p k) = V c main_arg0 (ix2 (row t p) k) := by
  obtain ⟨e0, e1, -⟩ := idx_facts t
  show V c main_arg0 (((cfg0.win 0).blk t).view.emb (ix2 p k)) = V c main_arg0 (ix2 (row t p) k)
  refine congrArg (V c main_arg0) (funext fun a => Fin.ext ?_)
  match a with
  | ⟨0, _⟩ => show win0_0.index t (0 : Fin 2) * 10000 + 1 * p.val = t.val * 10000 + p.val; omega
  | ⟨1, _⟩ => show win0_0.index t (1 : Fin 2) * 64 + 1 * k.val = k.val; omega

theorem blk_1 (c : Dev nD) (t : Fin cfg0.N) (k : Fin 64) (q : Fin 16) :
    iblk0 V c 1 t (ix2 k q) = V c main_arg1 (ix2 k q) := by
  obtain ⟨-, -, e0, e1, -⟩ := idx_facts t
  show V c main_arg1 (((cfg0.win 1).blk t).view.emb (ix2 k q)) = V c main_arg1 (ix2 k q)
  refine congrArg (V c main_arg1) (funext fun a => Fin.ext ?_)
  match a with
  | ⟨0, _⟩ => show win0_1.index t (0 : Fin 2) * 64 + 1 * k.val = k.val; omega
  | ⟨1, _⟩ => show win0_1.index t (1 : Fin 2) * 16 + 1 * q.val = q.val; omega

theorem emb_2 (t : Fin cfg0.N) (p : Fin 10000) (q : Fin 16) :
    ((cfg0.win 2).blk t).view.emb (ix2 p q) = ix2 (row t p) q := by
  obtain ⟨-, -, -, -, e0, e1⟩ := idx_facts t
  refine funext fun a => Fin.ext ?_
  match a with
  | ⟨0, _⟩ => show win0_2.index t (0 : Fin 2) * 10000 + 1 * p.val = t.val * 10000 + p.val; omega
  | ⟨1, _⟩ => show win0_2.index t (1 : Fin 2) * 16 + 1 * q.val = q.val; omega

/-! ## The region's result as one function of the arrays -/

/-- Entry (r, j) of the result: row r of the features against column j of the weights. -/
def G (x : S50000x64.Idx → EReal) (w : S64x16.Idx → EReal) : S50000x16.Idx → EReal :=
  fun i => ∑ k : Fin 64, x (ix2 (⟨(i 0).val, (i 0).isLt⟩ : Fin 50000) k) * w (ix2 k (⟨(i 1).val, (i 1).isLt⟩ : Fin 16))

theorem G_apply (x : S50000x64.Idx → EReal) (w : S64x16.Idx → EReal) (r : Fin 50000) (j : Fin 16) :
    G x w (ix2 r j) = ∑ k : Fin 64, x (ix2 r k) * w (ix2 k j) := rfl

theorem hz : (![0, 0] : Fin 2 → Nat) = fun _ => 0 := funext fun a => by fin_cases a <;> rfl

/-- What point `t` writes back is block `t` of `G` of the arrays as the region finds them. -/
theorem flushed_eq (c : Dev nD) (t : Fin cfg0.N) :
    (dat0 V c).flushed 2 t = ((cfg0.win 2).blk t).view.read (Elt Ideal) (G (V c main_arg0) (V c main_arg1)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x16) hz]
  funext j
  obtain ⟨p, q, rfl⟩ : ∃ (p : Fin 10000) (q : Fin 16), j = ix2 p q := ⟨j 0, j 1, eq_ix2 j⟩
  show k0_pay1 (iblk0 V c 0 t) (iblk0 V c 1 t) (ix2 p q)
    = G (V c main_arg0) (V c main_arg1) (((cfg0.win 2).blk t).view.emb (ix2 p q))
  rw [emb_2 t p q, G_apply]
  refine (pay_apply _ _ p q).trans (Finset.sum_congr rfl fun k _ => ?_)
  rw [blk_0 V c t p k, blk_1 V c t k q]

theorem mem_blk (t : Fin cfg0.N) (i : S50000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v9).slice (win0_2.rect t)).set ↔ _
  rw [View.set_slice_whole, Rect.mem_set_unit]
  exact Iff.rfl

/-- Every entry lies in the block of the point that its row selects. -/
theorem cover (i : S50000x16.Idx) :
    ∃ t : Fin cfg0.N, (cfg0.win 2).flush t = true ∧ i ∈ ((cfg0.win 2).blk t).view.set := by
  have hi0 : (i 0).val < 50000 := (i 0).isLt
  have hi1 : (i 1).val < 16 := (i 1).isLt
  let t : Fin cfg0.N := ⟨(i 0).val / 10000, by rw [N_eq]; omega⟩
  obtain ⟨-, -, -, -, e0, e1⟩ := idx_facts t
  have ht : t.val = (i 0).val / 10000 := rfl
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 16 ≤ (i 1).val ∧ (i 1).val < win0_2.index t (1 : Fin 2) * 16 + 16; omega

/-- THE ARRAY after the region: `G` of the arrays the region found. -/
theorem final (c : Dev nD) : (dat0 V c).arrAt 2 cfg0.N = G (V c main_arg0) (V c main_arg1) :=
  (dat0 V c).arrAt_eq_of_cover 2 _ (fun t _ => flushed_eq V c t) cover

end Cert.KernelIdeal.Project

end
-- ==== Proof.KNormalize.lean ====
/-
  The second region (normalise, bias, rectify), as one function of the arrays it finds.

  The region walks the 50000 rows in ten blocks of 5000. At a point it holds a block of the projected rows p, the
  same block of the aggregated rows a, the matching 5000 entries of the column d of reciprocal normalisers, and the
  whole bias row b, and writes back  max ((a + p) · d + b, 0)  entry by entry: entry (r, j) of the result depends
  only on row r of p and a, entry r of d and entry j of b. The ten blocks tile the array, so after the region the
  result array is that function everywhere.
-/
import proofs.«141278_j91018946937618_2_alg».proof.Proof.Gen.KernelIdeal.Frame
import proofs.«141278_j91018946937618_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Normalize

open Cert.KernelIdeal Cert.KernelIdeal.Gen
open Idealize.ShloMosaic Idealize.ShloMosaic.TcCoe Idealize.ShloMosaic.ValueIdx Idealize.SL.Sem
open Idealize.ShloMosaic.Pipeline (Dat)

/-- Entry (p, q) of the body's stored value, from the four loaded blocks. -/
theorem pay_apply (x0 x1 : Vec Ideal S5000x16 .f32) (x2 : Vec Ideal S5000x1 .f32) (x3 : Vec Ideal S1x16 .f32)
    (p : Fin 5000) (q : Fin 16) :
    k1_pay1 x0 x1 x2 x3 (ix2 p q)
      = max ((x1 (ix2 p q) + x0 (ix2 p q)) * x2 (ix2 p (0 : Fin 1)) + x3 (ix2 (0 : Fin 1) q)) 0 := by
  unfold k1_pay1
  simp only [shapeCast_self]
  show max ((x1 (ix2 p q) + x0 (ix2 p q)) * broadcastTo S5000x16 x2 broadcasts_S5000x1_S5000x16 (ix2 p q)
      + broadcastTo S5000x16 x3 broadcasts_S1x16_S5000x16 (ix2 p q)) (Ideal.ofBits .f32 0x00000000#32) = _
  rw [Cert.LibColumn.broadcastTo_a1_ab_apply, broadcastTo_1b_ab_apply, Ideal.ofBits_zero_f32]

/-! ## Where each window's block sits at a point -/

/-- The printed index maps over the grid: the three row-blocked inputs and the output sit at block row `t`,
    column block 0; the bias row sits at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem N_eq : cfg1.N = 10 := N_1

/-- Row `p` of block `t` is row `5000 t + p` of the array. -/
def row (t : Fin cfg1.N) (p : Fin 5000) : Fin 50000 :=
  ⟨t.val * 5000 + p.val, by have := t.isLt; have := N_eq; have := p.isLt; omega⟩

variable (V : (c : Dev nD) → (b : Ref sig .tc) → Buf (Elt Ideal) ((c : Thread nD τ).loc b))

theorem blk_0 (c : Dev nD) (t : Fin cfg1.N) (p : Fin 5000) (q : Fin 16) :
    iblk1 V c 0 t (ix2 p q) = V c main_v9 (ix2 (row t p) q) := by
  obtain ⟨e0, e1, -⟩ := idx_facts t
  show V c main_v9 (((cfg1.win 0).blk t).view.emb (ix2 p q)) = V c main_v9 (ix2 (row t p) q)
  refine congrArg (V c main_v9) (funext fun a => Fin.ext ?_)
  match a with
  | ⟨0, _⟩ => show win1_0.index t (0 : Fin 2) * 5000 + 1 * p.val = t.val * 5000 + p.val; omega
  | ⟨1, _⟩ => show win1_0.index t (1 : Fin 2) * 16 + 1 * q.val = q.val; omega

theorem blk_1 (c : Dev nD) (t : Fin cfg1.N) (p : Fin 5000) (q : Fin 16) :
    iblk1 V c 1 t (ix2 p q) = V c main_v19 (ix2 (row t p) q) := by
  obtain ⟨-, -, e0, e1, -⟩ := idx_facts t
  show V c main_v19 (((cfg1.win 1).blk t).view.emb (ix2 p q)) = V c main_v19 (ix2 (row t p) q)
  refine congrArg (V c main_v19) (funext fun a => Fin.ext ?_)
  match a with
  | ⟨0, _⟩ => show win1_1.index t (0 : Fin 2) * 5000 + 1 * p.val = t.val * 5000 + p.val; omega
  | ⟨1, _⟩ => show win1_1.index t (1 : Fin 2) * 16 + 1 * q.val = q.val; omega

theorem blk_2 (c : Dev nD) (t : Fin cfg1.N) (p : Fin 5000) :
    iblk1 V c 2 t (ix2 p (0 : Fin 1)) = V c main_v8 (ix2 (row t p) (0 : Fin 1)) := by
  obtain ⟨-, -, -, -, e0, e1, -⟩ := idx_facts t
  show V c main_v8 (((cfg1.win 2).blk t).view.emb (ix2 p (0 : Fin 1))) = V c main_v8 (ix2 (row t p) (0 : Fin 1))
  refine congrArg (V c main_v8) (funext fun a => Fin.ext ?_)
  match a with
  | ⟨0, _⟩ => show win1_2.index t (0 : Fin 2) * 5000 + 1 * p.val = t.val * 5000 + p.val; omega
  | ⟨1, _⟩ => show win1_2.index t (1 : Fin 2) * 1 + 1 * 0 = 0; omega

theorem blk_3 (c : Dev nD) (t : Fin cfg1.N) (q : Fin 16) :
    iblk1 V c 3 t (ix2 (0 : Fin 1) q) = V c main_v20 (ix2 (0 : Fin 1) q) := by
  obtain ⟨-, -, -, -, -, -, e0, e1, -⟩ := idx_facts t
  show V c main_v20 (((cfg1.win 3).blk t).view.emb (ix2 (0 : Fin 1) q)) = V c main_v20 (ix2 (0 : Fin 1) q)
  refine congrArg (V c main_v20) (funext fun a => Fin.ext ?_)
  match a with
  | ⟨0, _⟩ => show win1_3.index t (0 : Fin 2) * 1 + 1 * 0 = 0; omega
  | ⟨1, _⟩ => show win1_3.index t (1 : Fin 2) * 16 + 1 * q.val = q.val; omega

theorem emb_4 (t : Fin cfg1.N) (p : Fin 5000) (q : Fin 16) :
    ((cfg1.win 4).blk t).view.emb (ix2 p q) = ix2 (row t p) q := by
  obtain ⟨-, -, -, -, -, -, -, -, e0, e1⟩ := idx_facts t
  refine funext fun a => Fin.ext ?_
  match a with
  | ⟨0, _⟩ => show win1_4.index t (0 : Fin 2) * 5000 + 1 * p.val = t.val * 5000 + p.val; omega
  | ⟨1, _⟩ => show win1_4.index t (1 : Fin 2) * 16 + 1 * q.val = q.val; omega

/-! ## The region's result as one function of the arrays -/

/-- Entry (r, j) of the result: max ((a + p) · d + b, 0) at row r, column j. -/
def G (p a : S50000x16.Idx → EReal) (d : S50000x1.Idx → EReal) (b : S1x16.Idx → EReal) : S50000x16.Idx → EReal :=
  fun i => max ((a i + p i) * d (ix2 (⟨(i 0).val, (i 0).isLt⟩ : Fin 50000) (0 : Fin 1))
    + b (ix2 (0 : Fin 1) (⟨(i 1).val, (i 1).isLt⟩ : Fin 16))) 0

theorem G_apply (p a : S50000x16.Idx → EReal) (d : S50000x1.Idx → EReal) (b : S1x16.Idx → EReal) (r : Fin 50000) (j : Fin 16) :
    G p a d b (ix2 r j) = max ((a (ix2 r j) + p (ix2 r j)) * d (ix2 r (0 : Fin 1)) + b (ix2 (0 : Fin 1) j)) 0 := rfl

theorem hz : (![0, 0] : Fin 2 → Nat) = fun _ => 0 := funext fun a => by fin_cases a <;> rfl

/-- What point `t` writes back is block `t` of `G` of the arrays as the region finds them. -/
theorem flushed_eq (c : Dev nD) (t : Fin cfg1.N) :
    (dat1 V c).flushed 4 t
      = ((cfg1.win 4).blk t).view.read (Elt Ideal) (G (V c main_v9) (V c main_v19) (V c main_v8) (V c main_v20)) := by
  show (cfg1.win 4).cut (grid1.coords t) ((dat1 V c).after 4 t) = _
  rw [after1_4]
  unfold out1_4
  rw [View.canon_unit_zero hz]
  simp only [View.ld_unit_zero (S := S5000x16) hz, View.ld_unit_zero (S := S5000x1) hz, View.ld_unit_zero (S := S1x16) hz]
  funext j
  obtain ⟨p, q, rfl⟩ : ∃ (p : Fin 5000) (q : Fin 16), j = ix2 p q := ⟨j 0, j 1, eq_ix2 j⟩
  show k1_pay1 (iblk1 V c 0 t) (iblk1 V c 1 t) (iblk1 V c 2 t) (iblk1 V c 3 t) (ix2 p q)
    = G (V c main_v9) (V c main_v19) (V c main_v8) (V c main_v20) (((cfg1.win 4).blk t).view.emb (ix2 p q))
  rw [emb_4 t p q, G_apply]
  refine (pay_apply _ _ _ _ p q).trans ?_
  rw [blk_0 V c t p q, blk_1 V c t p q, blk_2 V c t p, blk_3 V c t q]

/-- An index of the array is in point `t`'s block iff each coordinate is in the block's range on its axis. -/
theorem mem_blk (t : Fin cfg1.N) (i : S50000x16.Idx) :
    i ∈ ((cfg1.win 4).blk t).view.set ↔ ∀ a : Fin 2, win1_4.index t a * S5000x16.size a ≤ (i a).val ∧ (i a).val < win1_4.index t a * S5000x16.size a + S5000x16.size a := by
  show i ∈ ((View.whole main_v21).slice (win1_4.rect t)).set ↔ _
  rw [View.set_slice_whole, Rect.mem_set_unit]
  exact Iff.rfl

/-- Every entry lies in the block of the point that its row selects. -/
theorem cover (i : S50000x16.Idx) :
    ∃ t : Fin cfg1.N, (cfg1.win 4).flush t = true ∧ i ∈ ((cfg1.win 4).blk t).view.set := by
  have hi0 : (i 0).val < 50000 := (i 0).isLt
  have hi1 : (i 1).val < 16 := (i 1).isLt
  let t : Fin cfg1.N := ⟨(i 0).val / 5000, by rw [N_eq]; omega⟩
  obtain ⟨-, -, -, -, -, -, -, -, e0, e1⟩ := idx_facts t
  have ht : t.val = (i 0).val / 5000 := rfl
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 16 ≤ (i 1).val ∧ (i 1).val < win1_4.index t (1 : Fin 2) * 16 + 16; omega

/-- THE ARRAY after the region: `G` of the arrays the region found. -/
theorem final (c : Dev nD) :
    (dat1 V c).arrAt 4 cfg1.N = G (V c main_v9) (V c main_v19) (V c main_v8) (V c main_v20) :=
  (dat1 V c).arrAt_eq_of_cover 4 _ (fun t _ => flushed_eq V c t) cover

end Cert.KernelIdeal.Normalize

end
-- ==== Proof.KCombine.lean ====
/-
  The third region (normalise, project, bias), as one function of the arrays it finds.

  The region walks the 50000 rows in ten blocks of 5000. At a point it holds a block of the hidden rows h, the same
  block of the aggregated rows a, the matching entries of the column d of reciprocal normalisers, the whole weight
  matrix w and the whole bias row b, and writes back  ((a + h) · d) · w + b : entry (r, j) of the result is
  (∑ k, ((a (r, k) + h (r, k)) · d r) · w (k, j)) + b j, which depends only on row r of h and a and entry r of d.
  The ten blocks tile the array.
-/
import proofs.«141278_j91018946937618_2_alg».proof.Proof.Gen.KernelIdeal.Frame
import proofs.«141278_j91018946937618_2_alg».proof.Proof.LibColumn
import proofs.«141278_j91018946937618_2_alg».proof.Proof.LibDenseEntry
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Combine

open Cert.KernelIdeal Cert.KernelIdeal.Gen
open Idealize.ShloMosaic Idealize.ShloMosaic.TcCoe Idealize.ShloMosaic.ValueIdx Idealize.SL.Sem
open Idealize.ShloMosaic.Pipeline (Dat)

/-- Entry (p, q) of the body's stored value, from the five loaded blocks. -/
theorem pay_apply (x0 x1 : Vec Ideal S5000x16 .f32) (x2 : Vec Ideal S5000x1 .f32) (x3 : Vec Ideal S16x16 .f32)
    (x4 : Vec Ideal S1x16 .f32) (p : Fin 5000) (q : Fin 16) :
    k2_pay1 x0 x1 x2 x3 x4 (ix2 p q)
      = (∑ k : Fin 16, ((x1 (ix2 p k) + x0 (ix2 p k)) * x2 (ix2 p (0 : Fin 1))) * x3 (ix2 k q))
        + x4 (ix2 (0 : Fin 1) q) := by
  unfold k2_pay1
  simp only [shapeCast_self]
  refine (congrArg₂ (fun a b : EReal => a + b)
    (Cert.LibDenseEntry.matmul_plain_zero_apply dot_S5000x16_S16x16_S5000x16_1_0_0_1_n_n rfl rfl rfl rfl rfl rfl none
      (truncf .bf16 (mulf (addf x1 x0) (broadcastTo S5000x16 x2 broadcasts_S5000x1_S5000x16)) bitsLt_bf16_f32)
      (truncf .bf16 x3 bitsLt_bf16_f32) p q)
    (broadcastTo_1b_ab_apply x4 broadcasts_S1x16_S5000x16 p q)).trans ?_
  refine congrArg (· + x4 (ix2 (0 : Fin 1) q)) (Finset.sum_congr rfl fun k _ => ?_)
  show ((x1 (ix2 p k) + x0 (ix2 p k)) * broadcastTo S5000x16 x2 broadcasts_S5000x1_S5000x16 (ix2 p k)) * x3 (ix2 k q) = _
  rw [Cert.LibColumn.broadcastTo_a1_ab_apply]

/-! ## Where each window's block sits at a point -/

theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem N_eq : cfg2.N = 10 := N_2

/-- Row `p` of block `t` is row `5000 t + p` of the array. -/
def row (t : Fin cfg2.N) (p : Fin 5000) : Fin 50000 :=
  ⟨t.val * 5000 + p.val, by have := t.isLt; have := N_eq; have := p.isLt; omega⟩

variable (V : (c : Dev nD) → (b : Ref sig .tc) → Buf (Elt Ideal) ((c : Thread nD τ).loc b))

theorem blk_0 (c : Dev nD) (t : Fin cfg2.N) (p : Fin 5000) (q : Fin 16) :
    iblk2 V c 0 t (ix2 p q) = V c main_v21 (ix2 (row t p) q) := by
  obtain ⟨e0, e1, -⟩ := idx_facts t
  show V c main_v21 (((cfg2.win 0).blk t).view.emb (ix2 p q)) = V c main_v21 (ix2 (row t p) q)
  refine congrArg (V c main_v21) (funext fun a => Fin.ext ?_)
  match a with
  | ⟨0, _⟩ => show win2_0.index t (0 : Fin 2) * 5000 + 1 * p.val = t.val * 5000 + p.val; omega
  | ⟨1, _⟩ => show win2_0.index t (1 : Fin 2) * 16 + 1 * q.val = q.val; omega

theorem blk_1 (c : Dev nD) (t : Fin cfg2.N) (p : Fin 5000) (q : Fin 16) :
    iblk2 V c 1 t (ix2 p q) = V c main_v31 (ix2 (row t p) q) := by
  obtain ⟨-, -, e0, e1, -⟩ := idx_facts t
  show V c main_v31 (((cfg2.win 1).blk t).view.emb (ix2 p q)) = V c main_v31 (ix2 (row t p) q)
  refine congrArg (V c main_v31) (funext fun a => Fin.ext ?_)
  match a with
  | ⟨0, _⟩ => show win2_1.index t (0 : Fin 2) * 5000 + 1 * p.val = t.val * 5000 + p.val; omega
  | ⟨1, _⟩ => show win2_1.index t (1 : Fin 2) * 16 + 1 * q.val = q.val; omega

theorem blk_2 (c : Dev nD) (t : Fin cfg2.N) (p : Fin 5000) :
    iblk2 V c 2 t (ix2 p (0 : Fin 1)) = V c main_v8 (ix2 (row t p) (0 : Fin 1)) := by
  obtain ⟨-, -, -, -, e0, e1, -⟩ := idx_facts t
  show V c main_v8 (((cfg2.win 2).blk t).view.emb (ix2 p (0 : Fin 1))) = V c main_v8 (ix2 (row t p) (0 : Fin 1))
  refine congrArg (V c main_v8) (funext fun a => Fin.ext ?_)
  match a with
  | ⟨0, _⟩ => show win2_2.index t (0 : Fin 2) * 5000 + 1 * p.val = t.val * 5000 + p.val; omega
  | ⟨1, _⟩ => show win2_2.index t (1 : Fin 2) * 1 + 1 * 0 = 0; omega

theorem blk_3 (c : Dev nD) (t : Fin cfg2.N) (k : Fin 16) (q : Fin 16) :
    iblk2 V c 3 t (ix2 k q) = V c main_arg3 (ix2 k q) := by
  obtain ⟨-, -, -, -, -, -, e0, e1, -⟩ := idx_facts t
  show V c main_arg3 (((cfg2.win 3).blk t).view.emb (ix2 k q)) = V c main_arg3 (ix2 k q)
  refine congrArg (V c main_arg3) (funext fun a => Fin.ext ?_)
  match a with
  | ⟨0, _⟩ => show win2_3.index t (0 : Fin 2) * 16 + 1 * k.val = k.val; omega
  | ⟨1, _⟩ => show win2_3.index t (1 : Fin 2) * 16 + 1 * q.val = q.val; omega

theorem blk_4 (c : Dev nD) (t : Fin cfg2.N) (q : Fin 16) :
    iblk2 V c 4 t (ix2 (0 : Fin 1) q) = V c main_v32 (ix2 (0 : Fin 1) q) := by
  obtain ⟨-, -, -, -, -, -, -, -, e0, e1, -⟩ := idx_facts t
  show V c main_v32 (((cfg2.win 4).blk t).view.emb (ix2 (0 : Fin 1) q)) = V c main_v32 (ix2 (0 : Fin 1) q)
  refine congrArg (V c main_v32) (funext fun a => Fin.ext ?_)
  match a with
  | ⟨0, _⟩ => show win2_4.index t (0 : Fin 2) * 1 + 1 * 0 = 0; omega
  | ⟨1, _⟩ => show win2_4.index t (1 : Fin 2) * 16 + 1 * q.val = q.val; omega

theorem emb_5 (t : Fin cfg2.N) (p : Fin 5000) (q : Fin 16) :
    ((cfg2.win 5).blk t).view.emb (ix2 p q) = ix2 (row t p) q := by
  obtain ⟨-, -, -, -, -, -, -, -, -, -, e0, e1⟩ := idx_facts t
  refine funext fun a => Fin.ext ?_
  match a with
  | ⟨0, _⟩ => show win2_5.index t (0 : Fin 2) * 5000 + 1 * p.val = t.val * 5000 + p.val; omega
  | ⟨1, _⟩ => show win2_5.index t (1 : Fin 2) * 16 + 1 * q.val = q.val; omega

/-! ## The region's result as one function of the arrays -/

/-- Entry (r, j) of the result: ((a + h) · d) row r against column j of the weights, plus the bias. -/
def G (h a : S50000x16.Idx → EReal) (d : S50000x1.Idx → EReal) (w : S16x16.Idx → EReal) (b : S1x16.Idx → EReal) :
    S50000x16.Idx → EReal :=
  fun i => (∑ k : Fin 16, ((a (ix2 (⟨(i 0).val, (i 0).isLt⟩ : Fin 50000) k) + h (ix2 (⟨(i 0).val, (i 0).isLt⟩ : Fin 50000) k))
        * d (ix2 (⟨(i 0).val, (i 0).isLt⟩ : Fin 50000) (0 : Fin 1))) * w (ix2 k (⟨(i 1).val, (i 1).isLt⟩ : Fin 16)))
      + b (ix2 (0 : Fin 1) (⟨(i 1).val, (i 1).isLt⟩ : Fin 16))

theorem G_apply (h a : S50000x16.Idx → EReal) (d : S50000x1.Idx → EReal) (w : S16x16.Idx → EReal) (b : S1x16.Idx → EReal)
    (r : Fin 50000) (j : Fin 16) :
    G h a d w b (ix2 r j)
      = (∑ k : Fin 16, ((a (ix2 r k) + h (ix2 r k)) * d (ix2 r (0 : Fin 1))) * w (ix2 k j)) + b (ix2 (0 : Fin 1) j) := rfl

theorem hz : (![0, 0] : Fin 2 → Nat) = fun _ => 0 := funext fun a => by fin_cases a <;> rfl

/-- What point `t` writes back is block `t` of `G` of the arrays as the region finds them. -/
theorem flushed_eq (c : Dev nD) (t : Fin cfg2.N) :
    (dat2 V c).flushed 5 t
      = ((cfg2.win 5).blk t).view.read (Elt Ideal)
          (G (V c main_v21) (V c main_v31) (V c main_v8) (V c main_arg3) (V c main_v32)) := by
  show (cfg2.win 5).cut (grid2.coords t) ((dat2 V c).after 5 t) = _
  rw [after2_5]
  unfold out2_5
  rw [View.canon_unit_zero hz]
  simp only [View.ld_unit_zero (S := S5000x16) hz, View.ld_unit_zero (S := S5000x1) hz, View.ld_unit_zero (S := S16x16) hz,
    View.ld_unit_zero (S := S1x16) hz]
  funext j
  obtain ⟨p, q, rfl⟩ : ∃ (p : Fin 5000) (q : Fin 16), j = ix2 p q := ⟨j 0, j 1, eq_ix2 j⟩
  show k2_pay1 (iblk2 V c 0 t) (iblk2 V c 1 t) (iblk2 V c 2 t) (iblk2 V c 3 t) (iblk2 V c 4 t) (ix2 p q)
    = G (V c main_v21) (V c main_v31) (V c main_v8) (V c main_arg3) (V c main_v32) (((cfg2.win 5).blk t).view.emb (ix2 p q))
  rw [emb_5 t p q, G_apply]
  refine (pay_apply _ _ _ _ _ p q).trans ?_
  rw [blk_2 V c t p, blk_4 V c t q]
  refine congrArg (· + V c main_v32 (ix2 (0 : Fin 1) q)) (Finset.sum_congr rfl fun k _ => ?_)
  rw [blk_0 V c t p k, blk_1 V c t p k, blk_3 V c t k q]

theorem mem_blk (t : Fin cfg2.N) (i : S50000x16.Idx) :
    i ∈ ((cfg2.win 5).blk t).view.set ↔ ∀ a : Fin 2, win2_5.index t a * S5000x16.size a ≤ (i a).val ∧ (i a).val < win2_5.index t a * S5000x16.size a + S5000x16.size a := by
  show i ∈ ((View.whole main_v33).slice (win2_5.rect t)).set ↔ _
  rw [View.set_slice_whole, Rect.mem_set_unit]
  exact Iff.rfl

/-- Every entry lies in the block of the point that its row selects. -/
theorem cover (i : S50000x16.Idx) :
    ∃ t : Fin cfg2.N, (cfg2.win 5).flush t = true ∧ i ∈ ((cfg2.win 5).blk t).view.set := by
  have hi0 : (i 0).val < 50000 := (i 0).isLt
  have hi1 : (i 1).val < 16 := (i 1).isLt
  let t : Fin cfg2.N := ⟨(i 0).val / 5000, by rw [N_eq]; omega⟩
  obtain ⟨-, -, -, -, -, -, -, -, -, -, e0, e1⟩ := idx_facts t
  have ht : t.val = (i 0).val / 5000 := rfl
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 16 ≤ (i 1).val ∧ (i 1).val < win2_5.index t (1 : Fin 2) * 16 + 16; omega

/-- THE ARRAY after the region: `G` of the arrays the region found. -/
theorem final (c : Dev nD) :
    (dat2 V c).arrAt 5 cfg2.N = G (V c main_v21) (V c main_v31) (V c main_v8) (V c main_arg3) (V c main_v32) :=
  (dat2 V c).arrAt_eq_of_cover 5 _ (fun t _ => flushed_eq V c t) cover

end Cert.KernelIdeal.Combine

end
-- ==== Proof.KTerms.lean ====
/-
  The host-side terms of the idealized kernel program, named.

  Between its regions the program computes, on the host: the column of reciprocal normalisers, 1 / (count + 1),
  where count is the number of edges landing on each node (a scatter of ones); the aggregate of table rows over the
  edges (the rows gathered at the wrapped source numbers, then scattered, accumulating, to the destination
  numbers); and a bias vector laid out as a one-row matrix.
-/
import proofs.«141278_j91018946937618_2_alg».proof.Proof.Gen.KernelIdeal
import Idealize.ShloMosaic.PureOps.Ideal.Laws

noncomputable section

namespace Cert.KernelIdeal.Terms

open Cert.KernelIdeal Cert.KernelIdeal.Gen Idealize.ShloMosaic

/-- The column of reciprocal normalisers, 1 / (in-degree + 1), from the destination numbers. -/
def invdegCol (dst : IVec S1000000 32) : S50000x1.Idx → EReal :=
  shapeCast S50000x1
    (Host.divf (F := Ideal) (broadcastInDim S50000 ![] bcast_S_S50000 (constant S_ .f32 0x3F800000#32))
      (addf
        (Host.scatterAdd scatter_S50000_S1000000x1_S1000000_n_0_0_1
          (broadcastInDim S50000 ![] bcast_S_S50000 (constant S_ .f32 0x00000000#32))
          (broadcastInDim S1000000x1 ![0] bcast_S1000000_S1000000x1_0 dst)
          (broadcastInDim S1000000 ![] bcast_S_S1000000 (constant S_ .f32 0x3F800000#32)))
        (broadcastInDim S50000 ![] bcast_S_S50000 (constant S_ .f32 0x3F800000#32))))
    shapeCasts_S50000_S50000x1

/-- The rows of `X` gathered at the wrapped source numbers and accumulated at the destination numbers. -/
def aggRows (X : S50000x16.Idx → EReal) (src dst : IVec S1000000 32) : S50000x16.Idx → EReal :=
  Host.scatterAdd (F := Ideal) scatter_S50000x16_S1000000x1_S1000000x16_1_0_0_1
    (broadcastInDim S50000x16 ![] bcast_S_S50000x16 (constant S_ .f32 0x00000000#32))
    (broadcastInDim S1000000x1 ![0] bcast_S1000000_S1000000x1_0 dst)
    (Host.gather gather_S50000x16_S1000000x1_S1000000x16_1_0_n_n_0_1_116 X
      (broadcastInDim S1000000x1 ![0] bcast_S1000000_S1000000x1_0
        (select (cmpi .slt src (broadcastInDim S1000000 ![] bcast_S_S1000000 (constantI S_ 32 0#32)))
          (addi src (broadcastInDim S1000000 ![] bcast_S_S1000000 (constantI S_ 32 50000#32))) src)))

/-- A bias vector as a one-row matrix. -/
def biasRow (b : S16.Idx → EReal) : S1x16.Idx → EReal := shapeCast S1x16 b shapeCasts_S16_S1x16

end Cert.KernelIdeal.Terms

end
-- ==== Proof.KChain.lean ====
/-
  The idealized kernel's result buffer as one closed term of the argument arrays.

  The run folds the device's buffer contents through six segments: host operations, the projection region, host
  operations, the normalising region, host operations, the combining region. Read at the buffers that matter:
    after the first stretch the arguments are untouched and the column d of reciprocal normalisers is in place;
    the projection region leaves p = x · W1 in its result array and touches nothing else;
    the second stretch aggregates the rows of p over the edges and lays the first bias out as a row;
    the normalising region leaves the hidden layer h = max ((agg p + p) · d + b1, 0);
    the third stretch aggregates the rows of h and lays the second bias out as a row;
    the combining region leaves ((agg h + h) · d) · W2 + b2 in the result buffer.
  A buffer that a segment does not write keeps its contents through that segment.
-/
import proofs.«141278_j91018946937618_2_alg».proof.Proof.Gen.KernelIdeal.Frame
import proofs.«141278_j91018946937618_2_alg».proof.Proof.KProject
import proofs.«141278_j91018946937618_2_alg».proof.Proof.KNormalize
import proofs.«141278_j91018946937618_2_alg».proof.Proof.KCombine
import proofs.«141278_j91018946937618_2_alg».proof.Proof.KTerms
import Idealize.ShloMosaic.Lib.StableHlo.Run

set_option maxRecDepth 16384

noncomputable section

namespace Cert.KernelIdeal.Chain

open Cert.KernelIdeal Cert.KernelIdeal.Gen Cert.KernelIdeal.Terms
open Idealize.ShloMosaic Idealize.ShloMosaic.TcCoe Idealize.SL.Sem Idealize.ShloMosaic.StableHlo

/-- The hidden layer as the kernel computes it. -/
def hidden (x : S50000x64.Idx → EReal) (w1 : S64x16.Idx → EReal) (b1 : S16.Idx → EReal) (src dst : IVec S1000000 32) :
    S50000x16.Idx → EReal :=
  Normalize.G (Project.G x w1) (aggRows (Project.G x w1) src dst) (invdegCol dst) (biasRow b1)

/-- The result as the kernel computes it. -/
def output (x : S50000x64.Idx → EReal) (w1 : S64x16.Idx → EReal) (b1 : S16.Idx → EReal) (w2 : S16x16.Idx → EReal)
    (b2 : S16.Idx → EReal) (src dst : IVec S1000000 32) : S50000x16.Idx → EReal :=
  Combine.G (hidden x w1 b1 src dst) (aggRows (hidden x w1 b1 src dst) src dst) (invdegCol dst) w2 (biasRow b2)

variable (m : (ℓ : Loc nD τ sig) → Buf (Elt Ideal) ℓ) (ρ : Dev nD → PrngReg) (c : Dev nD)

local macro "read_host0" : tactic =>
  `(tactic| (show StableHlo.after hostOps0 _ _ = _; dsimp only [hostOps0]; after_results; try rfl))
local macro "read_host1" : tactic =>
  `(tactic| (show StableHlo.after hostOps1 _ _ = _; dsimp only [hostOps1]; after_results; try rfl))
local macro "read_host2" : tactic =>
  `(tactic| (show StableHlo.after hostOps2 _ _ = _; dsimp only [hostOps2]; after_results; try rfl))

/-! ## After the first stretch -/

theorem W1_arg0 : W1 m ρ c (Proc.devRef .tc main_arg0) = m ((c : Thread nD τ).loc main_arg0) := by read_host0
theorem W1_arg1 : W1 m ρ c (Proc.devRef .tc main_arg1) = m ((c : Thread nD τ).loc main_arg1) := by read_host0
theorem W1_arg2 : W1 m ρ c (Proc.devRef .tc main_arg2) = m ((c : Thread nD τ).loc main_arg2) := by read_host0
theorem W1_arg3 : W1 m ρ c (Proc.devRef .tc main_arg3) = m ((c : Thread nD τ).loc main_arg3) := by read_host0
theorem W1_arg4 : W1 m ρ c (Proc.devRef .tc main_arg4) = m ((c : Thread nD τ).loc main_arg4) := by read_host0
theorem W1_arg5 : W1 m ρ c (Proc.devRef .tc main_arg5) = m ((c : Thread nD τ).loc main_arg5) := by read_host0
theorem W1_arg6 : W1 m ρ c (Proc.devRef .tc main_arg6) = m ((c : Thread nD τ).loc main_arg6) := by read_host0
theorem W1_v8 : W1 m ρ c (Proc.devRef .tc main_v8) = invdegCol (m ((c : Thread nD τ).loc main_arg6)) := by read_host0

/-! ## After the projection region -/

theorem W2_arg2 : W2 m ρ c (Proc.devRef .tc main_arg2) = m ((c : Thread nD τ).loc main_arg2) :=
  (W2_of_ne m ρ c main_arg2 (by decide)).trans (W1_arg2 m ρ c)
theorem W2_arg3 : W2 m ρ c (Proc.devRef .tc main_arg3) = m ((c : Thread nD τ).loc main_arg3) :=
  (W2_of_ne m ρ c main_arg3 (by decide)).trans (W1_arg3 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)
theorem W2_v8 : W2 m ρ c (Proc.devRef .tc main_v8) = invdegCol (m ((c : Thread nD τ).loc main_arg6)) :=
  (W2_of_ne m ρ c main_v8 (by decide)).trans (W1_v8 m ρ c)

theorem W2_v9 : W2 m ρ c (Proc.devRef .tc main_v9)
    = Project.G (m ((c : Thread nD τ).loc main_arg0)) (m ((c : Thread nD τ).loc main_arg1)) := by
  refine (W2_arr m ρ c 2).trans ?_
  rw [Project.final (V1 m ρ) c]
  show Project.G (W1 m ρ c (Proc.devRef .tc main_arg0)) (W1 m ρ c (Proc.devRef .tc main_arg1)) = _
  rw [W1_arg0, W1_arg1]

/-! ## After the second stretch -/

theorem W3_arg3 : W3 m ρ c (Proc.devRef .tc main_arg3) = m ((c : Thread nD τ).loc main_arg3) := by
  refine Eq.trans ?_ (W2_arg3 m ρ c); read_host1
theorem W3_arg4 : W3 m ρ c (Proc.devRef .tc main_arg4) = m ((c : Thread nD τ).loc main_arg4) := by
  refine Eq.trans ?_ (W2_arg4 m ρ c); read_host1
theorem W3_arg5 : W3 m ρ c (Proc.devRef .tc main_arg5) = m ((c : Thread nD τ).loc main_arg5) := by
  refine Eq.trans ?_ (W2_arg5 m ρ c); read_host1
theorem W3_arg6 : W3 m ρ c (Proc.devRef .tc main_arg6) = m ((c : Thread nD τ).loc main_arg6) := by
  refine Eq.trans ?_ (W2_arg6 m ρ c); read_host1
theorem W3_v8 : W3 m ρ c (Proc.devRef .tc main_v8) = invdegCol (m ((c : Thread nD τ).loc main_arg6)) := by
  refine Eq.trans ?_ (W2_v8 m ρ c); read_host1
theorem W3_v9 : W3 m ρ c (Proc.devRef .tc main_v9)
    = Project.G (m ((c : Thread nD τ).loc main_arg0)) (m ((c : Thread nD τ).loc main_arg1)) := by
  refine Eq.trans ?_ (W2_v9 m ρ c); read_host1
theorem W3_v19 : W3 m ρ c (Proc.devRef .tc main_v19)
    = aggRows (Project.G (m ((c : Thread nD τ).loc main_arg0)) (m ((c : Thread nD τ).loc main_arg1)))
        (m ((c : Thread nD τ).loc main_arg5)) (m ((c : Thread nD τ).loc main_arg6)) := by
  have e : W3 m ρ c (Proc.devRef .tc main_v19)
      = aggRows (W2 m ρ c (Proc.devRef .tc main_v9)) (W2 m ρ c (Proc.devRef .tc main_arg5))
          (W2 m ρ c (Proc.devRef .tc main_arg6)) := by read_host1
  rw [e, W2_v9, W2_arg5, W2_arg6]
theorem W3_v20 : W3 m ρ c (Proc.devRef .tc main_v20) = biasRow (m ((c : Thread nD τ).loc main_arg2)) := by
  have e : W3 m ρ c (Proc.devRef .tc main_v20) = biasRow (W2 m ρ c (Proc.devRef .tc main_arg2)) := by read_host1
  rw [e, W2_arg2]

/-! ## After the normalising region -/

theorem W4_arg3 : W4 m ρ c (Proc.devRef .tc main_arg3) = m ((c : Thread nD τ).loc main_arg3) :=
  (W4_of_ne m ρ c main_arg3 (by decide)).trans (W3_arg3 m ρ c)
theorem W4_arg4 : W4 m ρ c (Proc.devRef .tc main_arg4) = m ((c : Thread nD τ).loc main_arg4) :=
  (W4_of_ne m ρ c main_arg4 (by decide)).trans (W3_arg4 m ρ c)
theorem W4_arg5 : W4 m ρ c (Proc.devRef .tc main_arg5) = m ((c : Thread nD τ).loc main_arg5) :=
  (W4_of_ne m ρ c main_arg5 (by decide)).trans (W3_arg5 m ρ c)
theorem W4_arg6 : W4 m ρ c (Proc.devRef .tc main_arg6) = m ((c : Thread nD τ).loc main_arg6) :=
  (W4_of_ne m ρ c main_arg6 (by decide)).trans (W3_arg6 m ρ c)
theorem W4_v8 : W4 m ρ c (Proc.devRef .tc main_v8) = invdegCol (m ((c : Thread nD τ).loc main_arg6)) :=
  ((W4_arr m ρ c 2).trans (((dat1 (V3 m ρ) c).arrAt_in 2 rfl _).trans (A_eq1 (V3 m ρ) c 2))).trans (W3_v8 m ρ c)

theorem W4_v21 : W4 m ρ c (Proc.devRef .tc main_v21)
    = hidden (m ((c : Thread nD τ).loc main_arg0)) (m ((c : Thread nD τ).loc main_arg1)) (m ((c : Thread nD τ).loc main_arg2))
        (m ((c : Thread nD τ).loc main_arg5)) (m ((c : Thread nD τ).loc main_arg6)) := by
  refine (W4_arr m ρ c 4).trans ?_
  rw [Normalize.final (V3 m ρ) c]
  show Normalize.G (W3 m ρ c (Proc.devRef .tc main_v9)) (W3 m ρ c (Proc.devRef .tc main_v19))
    (W3 m ρ c (Proc.devRef .tc main_v8)) (W3 m ρ c (Proc.devRef .tc main_v20)) = _
  rw [W3_v9, W3_v19, W3_v8, W3_v20]
  rfl

/-! ## After the third stretch -/

theorem W5_arg3 : W5 m ρ c (Proc.devRef .tc main_arg3) = m ((c : Thread nD τ).loc main_arg3) := by
  refine Eq.trans ?_ (W4_arg3 m ρ c); read_host2
theorem W5_v8 : W5 m ρ c (Proc.devRef .tc main_v8) = invdegCol (m ((c : Thread nD τ).loc main_arg6)) := by
  refine Eq.trans ?_ (W4_v8 m ρ c); read_host2
theorem W5_v21 : W5 m ρ c (Proc.devRef .tc main_v21)
    = hidden (m ((c : Thread nD τ).loc main_arg0)) (m ((c : Thread nD τ).loc main_arg1)) (m ((c : Thread nD τ).loc main_arg2))
        (m ((c : Thread nD τ).loc main_arg5)) (m ((c : Thread nD τ).loc main_arg6)) := by
  refine Eq.trans ?_ (W4_v21 m ρ c); read_host2
theorem W5_v31 : W5 m ρ c (Proc.devRef .tc main_v31)
    = aggRows (hidden (m ((c : Thread nD τ).loc main_arg0)) (m ((c : Thread nD τ).loc main_arg1))
          (m ((c : Thread nD τ).loc main_arg2)) (m ((c : Thread nD τ).loc main_arg5)) (m ((c : Thread nD τ).loc main_arg6)))
        (m ((c : Thread nD τ).loc main_arg5)) (m ((c : Thread nD τ).loc main_arg6)) := by
  have e : W5 m ρ c (Proc.devRef .tc main_v31)
      = aggRows (W4 m ρ c (Proc.devRef .tc main_v21)) (W4 m ρ c (Proc.devRef .tc main_arg5))
          (W4 m ρ c (Proc.devRef .tc main_arg6)) := by read_host2
  rw [e, W4_v21, W4_arg5, W4_arg6]
theorem W5_v32 : W5 m ρ c (Proc.devRef .tc main_v32) = biasRow (m ((c : Thread nD τ).loc main_arg4)) := by
  have e : W5 m ρ c (Proc.devRef .tc main_v32) = biasRow (W4 m ρ c (Proc.devRef .tc main_arg4)) := by read_host2
  rw [e, W4_arg4]

/-! ## After the combining region -/

/-- The result buffer after the run. -/
theorem result : W6 m ρ c (Proc.devRef .tc main_v33)
    = output (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (W6_arr m ρ c 5).trans ?_
  rw [Combine.final (V5 m ρ) c]
  show Combine.G (W5 m ρ c (Proc.devRef .tc main_v21)) (W5 m ρ c (Proc.devRef .tc main_v31))
    (W5 m ρ c (Proc.devRef .tc main_v8)) (W5 m ρ c (Proc.devRef .tc main_arg3)) (W5 m ρ c (Proc.devRef .tc main_v32)) = _
  rw [W5_v21, W5_v31, W5_v8, W5_arg3, W5_v32]
  rfl

end Cert.KernelIdeal.Chain

end
-- ==== Proof.LibRowScatter.lean ====
/-
  Two host operations on whole rows of a two-dimensional table, read at one entry.

  (1) Gathering rows. For a table of N rows and C columns and a list of E row numbers, the gathered array has E rows
      and C columns; its entry (e, q) is the table's entry (row named by e, q), where the row number is read as a
      signed integer and clamped into [0, N - 1].

  (2) Accumulating rows. For a base array of N rows and C columns, a list of E row numbers and E update rows of C
      columns, the accumulated array's entry (r, q) is the base entry plus the sum, over the positions e whose row
      number (read as a signed integer) is exactly r, of the update entry (e, q). A row number outside [0, N - 1]
      names no row and contributes nothing.
-/
import Idealize.ShloMosaic.PureOps.Ideal
import Idealize.ShloMosaic.Lib.ValueIdx

noncomputable section

open scoped BigOperators

namespace Cert.LibRowScatter
open Idealize.ShloMosaic Idealize.ShloMosaic.ValueIdx

/-- dimension numbers of x[rows]: offset_dims [1], collapsed_slice_dims [0], start_index_map [0], index_vector_dim 1, slice_sizes [1, C] -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- dimension numbers of the row scatter: update_window_dims [1], inserted_window_dims [0], scatter_dims_to_operand_dims [0], index_vector_dim 1 -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The table row that edge e's start index names: read as a signed integer and clamped into [0, N − 1]. -/
def rowAt {E w : Nat} (N : Nat) (hN : 0 < N) (idx : IVec ⟨2, ![E, 1]⟩ w) (e : Fin E) : Fin N :=
  ⟨min (idx (ix2 e (0 : Fin 1))).toInt.toNat (N - 1), by omega⟩

theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q) = x (ix2 (rowAt N hN idx e) q) := by
  unfold Host.gather
  congr 1
  funext a
  refine Fin.ext ?_
  match a with
  | ⟨0, _⟩ =>
    show (rowGatherDims N E C wf).start (ix2 e q) idx 0 + (rowGatherDims N E C wf).batchCoord (ix2 e q) 0
      + (rowGatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e q) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e q) idx 1 + (rowGatherDims N E C wf).batchCoord (ix2 e q) 1
      + (rowGatherDims N E C wf).offCoord (ix2 e q) 1 = _
    rw [GatherDims.batchCoord_eq_zero _ _ _ List.not_mem_nil]
    have hne : ∀ h : (1 : Fin 2) = 0, False := fun h => Nat.one_ne_zero (congrArg Fin.val h)
    have hnm : (1 : Fin 2) ∉ (rowGatherDims N E C wf).startIndexMap := fun h => hne (List.mem_singleton.mp h)
    have hk : (1 : Fin 2) ∈ (rowGatherDims N E C wf).sKept :=
      (GatherDims.mem_sKept _ _).mpr ⟨fun h => hne (List.mem_singleton.mp h), List.not_mem_nil⟩
    unfold GatherDims.start GatherDims.offCoord
    rw [dif_neg hnm, dif_pos hk]
    simp only [Nat.zero_add]
    rfl

/-! ## The accumulating scatter of rows -/

section Scatter
variable {N E C w : Nat} (wf : ScatterDims.WF ⟨2, ![N, C]⟩ ⟨2, ![E, 1]⟩ ⟨2, ![E, C]⟩ [1] [0] [0] 1)

/-- An axis is kept exactly when it is not among the removed ones. -/
theorem mem_kept {s : Shape} (axes : List (Fin s.rank)) (a : Fin s.rank) : a ∈ s.kept axes ↔ a ∉ axes := by
  simp [Shape.kept, List.mem_filter, List.mem_finRange]

/-- On the row axis the window of update (e, q') starts at e's row number, read as a signed integer. -/
theorem scatter_start_row (idx : IVec ⟨2, ![E, 1]⟩ w) (e : Fin E) (q' : Fin C) :
    (rowScatterDims N E C wf).start (ix2 e q') idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e q')
      ⟨List.idxOf (0 : Fin 2) (rowScatterDims N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0. -/
theorem scatter_start_col (idx : IVec ⟨2, ![E, 1]⟩ w) (e : Fin E) (q' : Fin C) :
    (rowScatterDims N E C wf).start (ix2 e q') idx 1 = 0 := by
  unfold ScatterDims.start
  rw [dif_neg (fun h => Nat.one_ne_zero (congrArg Fin.val (List.mem_singleton.mp h)))]

/-- The row axis is inserted: the window coordinate there is 0. -/
theorem scatter_window_row (e : Fin E) (q' : Fin C) : (rowScatterDims N E C wf).window (ix2 e q') 0 = 0 := by
  unfold ScatterDims.window
  rw [dif_neg (fun h => ((mem_kept _ _).mp h) (List.mem_singleton.mpr rfl))]

/-- On the column axis the window coordinate is the update's column. -/
theorem scatter_window_col (e : Fin E) (q' : Fin C) : (rowScatterDims N E C wf).window (ix2 e q') 1 = q'.val := by
  unfold ScatterDims.window
  rw [dif_pos ((mem_kept _ _).mpr (fun h => Nat.one_ne_zero (congrArg Fin.val (List.mem_singleton.mp h))))]
  rfl

/-- Update (e, q') lands at entry (r, q) exactly when e's row number is r and q' = q. -/
theorem resultIdx_eq_some_iff (idx : IVec ⟨2, ![E, 1]⟩ w) (e : Fin E) (q' : Fin C) (r : Fin N) (q : Fin C) :
    (rowScatterDims N E C wf).resultIdx? (ix2 e q') idx = some (ix2 r q)
      ↔ (idx (ix2 e (0 : Fin 1))).toInt = (r.val : ℤ) ∧ q' = q := by
  have hs0 := scatter_start_row wf idx e q'
  have hs1 := scatter_start_col wf idx e q'
  have hw0 := scatter_window_row wf e q'
  have hw1 := scatter_window_col wf e q'
  unfold ScatterDims.resultIdx?
  constructor
  · intro h
    split at h
    · rename_i hall
      have hf := Option.some.inj h
      have h0 : ((rowScatterDims N E C wf).start (ix2 e q') idx 0
          + ((rowScatterDims N E C wf).window (ix2 e q') 0 : ℤ)).toNat = r.val :=
        congrArg (fun f => (f 0).val) hf
      have h1 : ((rowScatterDims N E C wf).start (ix2 e q') idx 1
          + ((rowScatterDims N E C wf).window (ix2 e q') 1 : ℤ)).toNat = q.val :=
        congrArg (fun f => (f 1).val) hf
      have ha0 := (hall 0).1
      rw [hs0, hw0] at h0 ha0
      rw [hs1, hw1] at h1
      refine ⟨by omega, Fin.ext (by omega)⟩
    · exact absurd h (by simp)
  · rintro ⟨hI, rfl⟩
    have hall : ∀ a, 0 ≤ (rowScatterDims N E C wf).start (ix2 e q') idx a + ((rowScatterDims N E C wf).window (ix2 e q') a : ℤ)
        ∧ (rowScatterDims N E C wf).start (ix2 e q') idx a + ((rowScatterDims N E C wf).window (ix2 e q') a : ℤ)
          < (((⟨2, ![N, C]⟩ : Shape).size a : ℕ) : ℤ) := by
      intro a
      match a with
      | ⟨0, _⟩ =>
        show 0 ≤ (rowScatterDims N E C wf).start (ix2 e q') idx 0 + ((rowScatterDims N E C wf).window (ix2 e q') 0 : ℤ)
          ∧ (rowScatterDims N E C wf).start (ix2 e q') idx 0 + ((rowScatterDims N E C wf).window (ix2 e q') 0 : ℤ) < ((N : ℕ) : ℤ)
        rw [hs0, hw0, hI]
        have := r.isLt
        omega
      | ⟨1, _⟩ =>
        show 0 ≤ (rowScatterDims N E C wf).start (ix2 e q') idx 1 + ((rowScatterDims N E C wf).window (ix2 e q') 1 : ℤ)
          ∧ (rowScatterDims N E C wf).start (ix2 e q') idx 1 + ((rowScatterDims N E C wf).window (ix2 e q') 1 : ℤ) < ((C : ℕ) : ℤ)
        rw [hs1, hw1]
        have := q'.isLt
        omega
    rw [dif_pos hall]
    congr 1
    funext a
    refine Fin.ext ?_
    match a with
    | ⟨0, _⟩ =>
      show ((rowScatterDims N E C wf).start (ix2 e q') idx 0 + ((rowScatterDims N E C wf).window (ix2 e q') 0 : ℤ)).toNat = r.val
      rw [hs0, hw0, hI]
      omega
    | ⟨1, _⟩ =>
      show ((rowScatterDims N E C wf).start (ix2 e q') idx 1 + ((rowScatterDims N E C wf).window (ix2 e q') 1 : ℤ)).toNat = q'.val
      rw [hs1, hw1]
      omega

end Scatter

/-- THE ROW SCATTER READ AT (r, q): the base entry plus the sum, over the positions e whose row number is r, of the
    update entry (e, q). -/
theorem scatterAdd_rows_apply {N E C w : Nat}
    (wf : ScatterDims.WF ⟨2, ![N, C]⟩ ⟨2, ![E, 1]⟩ ⟨2, ![E, C]⟩ [1] [0] [0] 1)
    (x0 : (⟨2, ![N, C]⟩ : Shape).Idx → EReal) (idx : IVec ⟨2, ![E, 1]⟩ w)
    (upd : (⟨2, ![E, C]⟩ : Shape).Idx → EReal) (r : Fin N) (q : Fin C) :
    Ideal.hostScatterAdd (rowScatterDims N E C wf) x0 idx upd (ix2 r q)
      = x0 (ix2 r q) + ∑ e : Fin E, if (idx (ix2 e (0 : Fin 1))).toInt = (r.val : ℤ) then upd (ix2 e q) else 0 := by
  unfold Ideal.hostScatterAdd
  congr 1
  rw [Finset.sum_filter, sum_idx2]
  refine Finset.sum_congr rfl (fun e _ => ?_)
  rw [Finset.sum_eq_single q]
  · by_cases h : (idx (ix2 e (0 : Fin 1))).toInt = (r.val : ℤ)
    · rw [if_pos h, if_pos ((resultIdx_eq_some_iff wf idx e q r q).mpr ⟨h, rfl⟩)]
    · rw [if_neg h, if_neg (fun hh => h ((resultIdx_eq_some_iff wf idx e q r q).mp hh).1)]
  · intro q' _ hne
    rw [if_neg (fun hh => hne ((resultIdx_eq_some_iff wf idx e q' r q).mp hh).2)]
  · intro h
    exact absurd (Finset.mem_univ q) h

end Cert.LibRowScatter
-- ==== Proof.LibVecScatter.lean ====
/-
  The accumulating scatter of a vector of updates into a vector, read at one entry.

  For a base vector of N entries, a column of E node numbers and a vector of E updates, the accumulated vector's
  entry r is the base entry plus the sum, over the positions e whose node number (read as a signed integer) is
  exactly r, of update e. A node number outside [0, N - 1] names no entry and contributes nothing.
-/
import Idealize.ShloMosaic.PureOps.Ideal
import Idealize.ShloMosaic.Lib.ValueIdx

noncomputable section

open scoped BigOperators

namespace Cert.LibVecScatter
open Idealize.ShloMosaic Idealize.ShloMosaic.ValueIdx

/-- dimension numbers of the vector scatter: no update window axis, inserted_window_dims [0],
    scatter_dims_to_operand_dims [0], index_vector_dim 1 -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## Sums over a rank-1 index set -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Where one update lands -/

section Scatter
variable {N E w : Nat} (wf : ScatterDims.WF ⟨1, ![N]⟩ ⟨2, ![E, 1]⟩ ⟨1, ![E]⟩ [] [0] [0] 1)

/-- An axis is kept exactly when it is not among the removed ones. -/
theorem mem_kept {s : Shape} (axes : List (Fin s.rank)) (a : Fin s.rank) : a ∈ s.kept axes ↔ a ∉ axes := by
  simp [Shape.kept, List.mem_filter, List.mem_finRange]

/-- On the one operand axis the window of update e starts at e's node number, read as a signed integer. -/
theorem scatter_start (idx : IVec ⟨2, ![E, 1]⟩ w) (e : Fin E) :
    (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is inserted: the window coordinate there is 0. -/
theorem scatter_window (e : Fin E) : (vecScatterDims N E wf).window (ix1 e) 0 = 0 := by
  unfold ScatterDims.window
  rw [dif_neg (fun h => ((mem_kept _ _).mp h) (List.mem_singleton.mpr rfl))]

/-- Update e lands at entry r exactly when e's node number is r. -/
theorem resultIdx_eq_some_iff (idx : IVec ⟨2, ![E, 1]⟩ w) (e : Fin E) (r : Fin N) :
    (vecScatterDims N E wf).resultIdx? (ix1 e) idx = some (ix1 r)
      ↔ (idx (ix2 e (0 : Fin 1))).toInt = (r.val : ℤ) := by
  have hs := scatter_start wf idx e
  have hw := scatter_window wf e
  unfold ScatterDims.resultIdx?
  constructor
  · intro h
    split at h
    · rename_i hall
      have hf := Option.some.inj h
      have h0 : ((vecScatterDims N E wf).start (ix1 e) idx 0
          + ((vecScatterDims N E wf).window (ix1 e) 0 : ℤ)).toNat = r.val :=
        congrArg (fun f => (f 0).val) hf
      have ha0 := (hall 0).1
      rw [hs, hw] at h0 ha0
      omega
    · exact absurd h (by simp)
  · intro hI
    have hall : ∀ a, 0 ≤ (vecScatterDims N E wf).start (ix1 e) idx a + ((vecScatterDims N E wf).window (ix1 e) a : ℤ)
        ∧ (vecScatterDims N E wf).start (ix1 e) idx a + ((vecScatterDims N E wf).window (ix1 e) a : ℤ)
          < (((⟨1, ![N]⟩ : Shape).size a : ℕ) : ℤ) := by
      intro a
      match a with
      | ⟨0, _⟩ =>
        show 0 ≤ (vecScatterDims N E wf).start (ix1 e) idx 0 + ((vecScatterDims N E wf).window (ix1 e) 0 : ℤ)
          ∧ (vecScatterDims N E wf).start (ix1 e) idx 0 + ((vecScatterDims N E wf).window (ix1 e) 0 : ℤ) < ((N : ℕ) : ℤ)
        rw [hs, hw, hI]
        have := r.isLt
        omega
    rw [dif_pos hall]
    congr 1
    funext a
    refine Fin.ext ?_
    match a with
    | ⟨0, _⟩ =>
      show ((vecScatterDims N E wf).start (ix1 e) idx 0 + ((vecScatterDims N E wf).window (ix1 e) 0 : ℤ)).toNat = r.val
      rw [hs, hw, hI]
      omega

end Scatter

/-- THE VECTOR SCATTER READ AT r: the base entry plus the sum, over the positions e whose node number is r, of
    update e. -/
theorem scatterAdd_vec_apply {N E w : Nat}
    (wf : ScatterDims.WF ⟨1, ![N]⟩ ⟨2, ![E, 1]⟩ ⟨1, ![E]⟩ [] [0] [0] 1)
    (x0 : (⟨1, ![N]⟩ : Shape).Idx → EReal) (idx : IVec ⟨2, ![E, 1]⟩ w)
    (upd : (⟨1, ![E]⟩ : Shape).Idx → EReal) (r : Fin N) :
    Ideal.hostScatterAdd (vecScatterDims N E wf) x0 idx upd (ix1 r)
      = x0 (ix1 r) + ∑ e : Fin E, if (idx (ix2 e (0 : Fin 1))).toInt = (r.val : ℤ) then upd (ix1 e) else 0 := by
  unfold Ideal.hostScatterAdd
  congr 1
  rw [Finset.sum_filter, sum_idx1]
  refine Finset.sum_congr rfl (fun e _ => ?_)
  by_cases h : (idx (ix2 e (0 : Fin 1))).toInt = (r.val : ℤ)
  · rw [if_pos h, if_pos ((resultIdx_eq_some_iff wf idx e r).mpr h)]
  · rw [if_neg h, if_neg (fun hh => h ((resultIdx_eq_some_iff wf idx e r).mp hh))]

end Cert.LibVecScatter

end
-- ==== Proof.LibRowScale.lean ====
/-
  Scaling the rows of a matrix product by a positive real, over the extended reals.

  For a row `a` and a column `w` of extended reals and a real `m > 0`,
      (∑ k, a k * w k) * (1 / m)  =  ∑ k, (a k / m) * w k ,
  with no finiteness assumption on `a` or `w`: multiplication by a nonnegative real distributes over
  addition of extended reals (also over `⊤ + ⊥`), and the product of extended reals is commutative and
  associative. The divisor of a mean aggregation is `max c 1` for a count `c` — a finite sum of ones,
  so a real, and `max c 1 ≥ 1` —; `sum_one` and `max_one_real` say so.

  Counting by scatter-add: the host's accumulating scatter holds, at each entry, the operand's entry plus the sum of
  the updates that land on it. When the operand's entry is zero and every update is one, the entry is therefore a
  natural number read as a real (`scatterAdd_ones_nat`, `host_scatterAdd_ones_nat`): the number of updates that
  land there. Which updates those are plays no role.
-/
import Idealize.ShloMosaic.PureOps.Ideal
import Idealize.ShloMosaic.PureOps.Ideal.Laws

noncomputable section

open Idealize.ShloMosaic

namespace Cert.RowScale

/-- A nonnegative real factor moves into a finite sum of extended reals. -/
theorem sum_mul_real {ι : Type*} (s : Finset ι) (f : ι → EReal) (r : ℝ) (hr : 0 ≤ r) :
    (∑ k ∈ s, f k) * (r : EReal) = ∑ k ∈ s, f k * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- The row-scale law: a matrix product's entry times the reciprocal of a positive real is the entry of the
    product whose left rows were divided by that real first. -/
theorem dot_mul_inv {ι : Type*} [Fintype ι] (a w : ι → EReal) (m : ℝ) (hm : 0 < m) :
    (∑ k, a k * w k) * Ideal.div 1 (m : EReal) = ∑ k, Ideal.div (a k) (m : EReal) * w k := by
  have hne : m ≠ 0 := ne_of_gt hm
  rw [Ideal.div_coe hne, one_mul, sum_mul_real _ _ _ (by positivity)]
  refine Finset.sum_congr rfl fun k _ => ?_
  rw [Ideal.div_coe hne, mul_right_comm]

/-- A finite sum of ones, as an extended real, is the number of its terms. -/
theorem sum_one {ι : Type*} (s : Finset ι) : (∑ _j ∈ s, (1 : EReal)) = ((s.card : ℝ) : EReal) := by
  classical
  induction s using Finset.induction_on with
  | empty => simp
  | insert a s ha ih =>
    rw [Finset.sum_insert ha, ih, Finset.card_insert_of_notMem ha]
    push_cast
    rw [add_comm]

/-- The larger of a nonnegative count and one is a positive real. -/
theorem max_one_real (n : ℕ) : ∃ m : ℝ, 0 < m ∧ max (0 + ((n : ℝ) : EReal)) 1 = (m : EReal) :=
  ⟨max (n : ℝ) 1, lt_of_lt_of_le one_pos (le_max_right _ _), by
    rw [zero_add, ← EReal.coe_one]
    exact (EReal.coe_strictMono.monotone.map_max).symm⟩

/-- The f32 word of `1.0` denotes the real one. -/
theorem ofBits_one_f32 : Ideal.ofBits .f32 0x3F800000#32 = 1 := by
  simp [Ideal.ofBits, Ideal.ieee]
  rw [← EReal.coe_mul]
  norm_num

/-- A scatter-add of ones into an entry that holds zero is zero plus a natural number, for any shapes, scatter
    dimension numbers and index array. -/
theorem scatterAdd_ones_nat {s si su : Shape} (d : ScatterDims s si su) {w : Nat} (x : s.Idx → EReal) (idx : IVec si w)
    (upd : su.Idx → EReal) (i : s.Idx) (hx : x i = 0) (hu : ∀ j, upd j = 1) :
    ∃ n : ℕ, Ideal.hostScatterAdd d x idx upd i = 0 + ((n : ℝ) : EReal) := by
  unfold Ideal.hostScatterAdd
  rw [hx, Finset.sum_congr rfl (fun j _ => hu j), sum_one]
  exact ⟨_, rfl⟩

/-- The same for the host's scatter-add as a program states it, read at the ideal values. -/
theorem host_scatterAdd_ones_nat {s si su : Shape} (d : ScatterDims s si su) {w : Nat} (x : FVec Ideal s .f32) (idx : IVec si w)
    (upd : FVec Ideal su .f32) (i : s.Idx) (hx : x i = 0) (hu : ∀ j, upd j = 1) :
    ∃ n : ℕ, Host.scatterAdd d x idx upd i = 0 + ((n : ℝ) : EReal) :=
  scatterAdd_ones_nat d x idx upd i hx hu

end Cert.RowScale

end
-- ==== Proof.LibSpreadRow.lean ====
/-
  Row vectors and scalar constants spread over an array, read at an index (over any element type; the last two over
  the extended reals).

  A length-C vector b becomes a [1, C] row either by a reshape or by a broadcast along a new leading axis; spread over
  N rows, entry (p, q) of the result is b(q) either way.  A scalar constant spread over any shape reads the constant
  everywhere.  The host's reciprocal square root of an array is taken entry by entry.
-/
import Idealize.ShloMosaic.Lib.ValueIdx
import Idealize.ShloMosaic.Lib.Pipeline.Value
import Idealize.ShloMosaic.PureOps.Ideal.Laws

noncomputable section

namespace Cert.LibSpreadRow

open Idealize.ShloMosaic Idealize.ShloMosaic.ValueIdx

variable {N C : ℕ}

/-- A vector made a row by a broadcast along a new leading axis and then spread over N rows: entry (p, q) is b(q). -/
theorem spread_row_apply {α : Type} (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (p : Fin N) (q : Fin C) :
    broadcastInDim ⟨2, ![N, C]⟩ ![0, 1] h2 (broadcastInDim ⟨2, ![1, C]⟩ ![1] h1 b) (ix2 p q) = b (ix1 q) := by
  have e2 : broadcastInDim ⟨2, ![N, C]⟩ ![0, 1] h2 (broadcastInDim ⟨2, ![1, C]⟩ ![1] h1 b) (ix2 p q)
      = broadcastInDim ⟨2, ![1, C]⟩ ![1] h1 b (ix2 0 q) := by
    refine broadcastInDim_apply ![0, 1] h2 _ (ix2 p q) (ix2 0 q) fun a => ?_
    match a with
    | ⟨0, _⟩ => show (0 : ℕ) = if (1 : ℕ) = 1 then 0 else p.val; rfl
    | ⟨1, _⟩ =>
      show q.val = if C = 1 then 0 else q.val
      split
      · have := q.isLt; omega
      · rfl
  have e1 : broadcastInDim ⟨2, ![1, C]⟩ ![1] h1 b (ix2 0 q) = b (ix1 q) := by
    refine broadcastInDim_apply ![1] h1 b (ix2 0 q) (ix1 q) fun a => ?_
    match a with
    | ⟨0, _⟩ =>
      show q.val = if C = 1 then 0 else q.val
      split
      · have := q.isLt; omega
      · rfl
  rw [e2, e1]

/-- A vector reshaped to a [1, C] row, read at (0, q), is b(q). -/
theorem reshape_row_apply {α : Type} (b : (⟨1, ![C]⟩ : Shape).Idx → α)
    (h : (⟨1, ![C]⟩ : Shape).ShapeCasts ⟨2, ![1, C]⟩) (q : Fin C) :
    shapeCast ⟨2, ![1, C]⟩ b h (ix2 0 q) = b (ix1 q) := by
  refine shapeCast_apply b h (ix2 0 q) (ix1 q) ?_
  rw [Shape.rowMajor_val_one, Shape.rowMajor_val_two]
  show q.val = (0 : Fin 1).val * C + q.val
  simp

/-- A scalar constant spread over any shape reads the constant's value everywhere. -/
theorem spread_const_apply {t : Shape} {φ : FTy} (w : BitVec φ.bits)
    (h : (⟨0, ![]⟩ : Shape).BroadcastsInDim t ![]) (j : t.Idx) :
    broadcastInDim t ![] h (constant (F := Ideal) ⟨0, ![]⟩ φ w) j = Ideal.ofBits φ w :=
  (broadcastInDim_apply (s := ⟨0, ![]⟩) ![] h (constant (F := Ideal) ⟨0, ![]⟩ φ w) j (fun a => a.elim0) (fun a => a.elim0)).trans rfl

/-- The host's reciprocal square root of an array, read at an index. -/
theorem host_rsqrt_apply {s : Shape} {φ : FTy} (v : FVec Ideal s φ) (i : s.Idx) : Host.rsqrt v i = Ideal.rsqrt (v i) := rfl

end Cert.LibSpreadRow

end
-- ==== Proof.LibERealFinite.lean ====
/-
  General facts about sums and minima of extended reals that are real numbers.
-/
import Mathlib.Data.EReal.Inv
import Mathlib.Algebra.BigOperators.Group.Finset.Basic
import Mathlib.Data.Finset.Fold

namespace LibERealFinite

open scoped BigOperators

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of extended reals each of which is a real number is the coercion of the real sum. -/
theorem sum_eq_coe {ι : Type*} (s : Finset ι) (F : ι → EReal) (f : ι → ℝ) (h : ∀ i ∈ s, F i = (f i : EReal)) :
    ∑ i ∈ s, F i = ((∑ i ∈ s, f i : ℝ) : EReal) := by
  rw [coe_finset_sum]; exact Finset.sum_congr rfl h

/-- The coercion of the reals into the extended reals commutes with binary minima. -/
theorem coe_min (a b : ℝ) : ((min a b : ℝ) : EReal) = min (a : EReal) (b : EReal) := by
  rcases le_total a b with h | h
  · rw [min_eq_left h, min_eq_left (EReal.coe_le_coe_iff.mpr h)]
  · rw [min_eq_right h, min_eq_right (EReal.coe_le_coe_iff.mpr h)]

/-- The coercion of the reals into the extended reals commutes with binary maxima. -/
theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- A finite sum of extended reals each of which is a real number is a real number. -/
theorem exists_sum_eq_coe {ι : Type*} (s : Finset ι) (F : ι → EReal) (h : ∀ i ∈ s, ∃ r : ℝ, F i = (r : EReal)) :
    ∃ r : ℝ, ∑ i ∈ s, F i = (r : EReal) := by
  classical
  induction s using Finset.induction_on with
  | empty => exact ⟨0, by simp⟩
  | insert a s ha ih =>
    obtain ⟨r, hr⟩ := h a (Finset.mem_insert_self a s)
    obtain ⟨r', hr'⟩ := ih (fun i hi => h i (Finset.mem_insert_of_mem hi))
    exact ⟨r + r', by rw [Finset.sum_insert ha, hr, hr', EReal.coe_add]⟩

/-- A map that preserves order preserves binary minima. -/
theorem map_min_of_monotone {g : EReal → EReal} (hg : Monotone g) (a b : EReal) : g (min a b) = min (g a) (g b) := by
  rcases le_total a b with h | h
  · rw [min_eq_left h, min_eq_left (hg h)]
  · rw [min_eq_right h, min_eq_right (hg h)]

/-- A monotone map that fixes `⊤` commutes with the minimum (folded from `⊤`) of a finite family. -/
theorem map_fold_min {ι : Type*} (s : Finset ι) {g : EReal → EReal} (hg : Monotone g) (htop : g ⊤ = ⊤)
    (f : ι → EReal) : g (s.fold min ⊤ f) = s.fold min ⊤ (fun i => g (f i)) := by
  have := Finset.fold_hom (op := (min : EReal → EReal → EReal)) (op' := min) (s := s) (b := ⊤) (f := f)
    (m := g) (map_min_of_monotone hg)
  rw [htop] at this
  exact this.symm

/-- The minimum, folded from `⊤`, of a NONEMPTY finite family of real numbers is a real number. -/
theorem exists_fold_min_eq_coe {ι : Type*} (s : Finset ι) (hs : s.Nonempty) (f : ι → ℝ) :
    ∃ r : ℝ, s.fold min ⊤ (fun i => (f i : EReal)) = (r : EReal) := by
  classical
  induction hs using Finset.Nonempty.cons_induction with
  | singleton a => exact ⟨f a, by simp⟩
  | cons a s ha hs ih =>
    obtain ⟨r, hr⟩ := ih
    refine ⟨min (f a) r, ?_⟩
    rw [Finset.fold_cons, hr, coe_min]

end LibERealFinite
-- ==== Proof.LibReciprocal.lean ====
/-
  Scaling by a reciprocal against dividing, over the extended reals.

  Division of extended reals is the product with the inverse whenever the divisor is not zero, at the
  infinities too (the inverse of either infinity is zero). Hence, for a divisor `y` that is at least one,
  `x · (1 / y) = x / y` for EVERY extended real `x`: both sides are `x · y⁻¹`. Nothing has to be finite.

  The array form: an array `S` scaled entry by entry by the reciprocal of a clamped count, the count read
  through any re-indexing `π` of the entries (a column of counts broadcast along the rows), is `S`
  divided entry by entry by the clamped count read through the same re-indexing. A count clamped from
  below by one, `max c 1`, is at least one whatever `c` is.
-/
import Idealize.ShloMosaic.PureOps.Ideal.Laws
import Idealize.ShloMosaic.Lib.IdealHost

noncomputable section

namespace Reciprocal

open Idealize.ShloMosaic

/-- `x · (1 / y) = x / y` for a divisor at least one: both are `x · y⁻¹`. -/
theorem mul_one_div {x y : EReal} (hy : 1 ≤ y) : x * Ideal.div 1 y = Ideal.div x y := by
  have h0 : y ≠ 0 := fun h => absurd (h ▸ hy) (by norm_num)
  unfold Ideal.div
  rw [if_neg h0, if_neg h0, one_mul]

/-- The f32 pattern of one, splatted, is one at every index. -/
theorem constant_one {s : Shape} (k : s.Idx) : (constant (F := Ideal) s .f32 0x3F800000#32) k = 1 :=
  Ideal.ofBits_one_f32

/-- A count clamped from below by the splat of one is at least one. -/
theorem one_le_clamp {s : Shape} (C O : FVec Ideal s .f32) (hO : ∀ k, O k = 1) (k : s.Idx) :
    1 ≤ (maximumf C O) k := by
  show (1 : EReal) ≤ max (C k) (O k)
  rw [hO k]; exact le_max_right _ _

/-- An array scaled by the reciprocal of a clamped count, read through a re-indexing `π`, is the array
    divided by the clamped count read through `π`. -/
theorem scale_eq_divide {s t : Shape} (S : FVec Ideal t .f32) (O D : FVec Ideal s .f32) (π : t.Idx → s.Idx)
    (hO : ∀ k, O k = 1) (hD : ∀ k, 1 ≤ D k) :
    mulf S (fun j => (Host.divf O D) (π j)) = Host.divf S (fun j => D (π j)) := by
  funext j
  show S j * Ideal.div (O (π j)) (D (π j)) = Ideal.div (S j) (D (π j))
  rw [hO]; exact mul_one_div (hD _)

/-- The same with the re-indexing spelt as two broadcasts in a row (a vector of counts made a column, the
    column repeated along the rows). -/
theorem scale_bcast_eq_divide {s s1 t : Shape} (S : FVec Ideal t .f32) (O D : FVec Ideal s .f32)
    (d1 : Fin s.rank → Fin s1.rank) (h1 : s.BroadcastsInDim s1 d1)
    (d2 : Fin s1.rank → Fin t.rank) (h2 : s1.BroadcastsInDim t d2)
    (hO : ∀ k, O k = 1) (hD : ∀ k, 1 ≤ D k) :
    mulf S (broadcastInDim t d2 h2 (broadcastInDim s1 d1 h1 (Host.divf O D)))
      = Host.divf S (broadcastInDim t d2 h2 (broadcastInDim s1 d1 h1 D)) := by
  funext j
  show S j * Ideal.div (O _) (D _) = Ideal.div (S j) (D _)
  rw [hO]; exact mul_one_div (hD _)

end Reciprocal

end
-- ==== Proof.SageSpec.lean ====
/-
  A two-layer graph convolution with sum-then-normalise aggregation, as a function of its arrays, entry by entry.

  Data: N nodes, E edges. Edge e reads the table row ρ e and lands on the node whose number is δ e (an integer; an
  edge whose number names no node lands nowhere). For a quantity f on the edges, seg δ r f is zero plus the
  sum of f over the edges that land on node r. The normaliser of node r is its in-degree plus one,
  deg1 δ r = seg δ r 1 + 1: a real number that is at least one.

  The hidden layer in two arrangements:
    hidK: project first, p = x · W, then aggregate the projected rows, then scale by the reciprocal of the
          normaliser:  max ((seg (p ∘ ρ) + p) · (1 / deg1) + b, 0);
    hidR: aggregate the raw rows, divide by the normaliser, then project:
          max (((seg (x ∘ ρ) + x) / deg1) · W + b, 0).
  They agree when every entry of x and W is a real number: the product with W distributes over the edge sum and
  the row sum, the two sums change places, and the positive real factor 1 / deg1 moves inside the projection.
  The output layer in two arrangements differs only in scaling by the reciprocal against dividing, which agree
  for a divisor that is at least one, whatever the entries are.
-/
import proofs.«141278_j91018946937618_2_alg».proof.Proof.LibERealFinite
import proofs.«141278_j91018946937618_2_alg».proof.Proof.LibRowScale
import proofs.«141278_j91018946937618_2_alg».proof.Proof.LibReciprocal

noncomputable section

open scoped BigOperators

namespace Cert.Sage
open Idealize.ShloMosaic

variable {E N K C : ℕ}

/-- Zero plus the sum of `f` over the edges landing on node `r`. -/
def seg (δ : Fin E → ℤ) (r : Fin N) (f : Fin E → EReal) : EReal :=
  0 + ∑ e : Fin E, if δ e = (r.val : ℤ) then f e else 0

/-- The in-degree of node `r` plus one. -/
def deg1 (δ : Fin E → ℤ) (r : Fin N) : EReal := seg δ r (fun _ => 1) + 1

/-- The hidden layer, projecting before aggregating and scaling by a reciprocal. -/
def hidK (δ : Fin E → ℤ) (ρ : Fin E → Fin N) (x : Fin N → Fin K → EReal) (W : Fin K → Fin C → EReal)
    (b : Fin C → EReal) (r : Fin N) (j : Fin C) : EReal :=
  max ((seg δ r (fun e => ∑ k, x (ρ e) k * W k j) + ∑ k, x r k * W k j) * Ideal.div 1 (deg1 δ r) + b j) 0

/-- The hidden layer, aggregating raw rows, dividing, then projecting. -/
def hidR (δ : Fin E → ℤ) (ρ : Fin E → Fin N) (x : Fin N → Fin K → EReal) (W : Fin K → Fin C → EReal)
    (b : Fin C → EReal) (r : Fin N) (j : Fin C) : EReal :=
  max ((∑ k, Ideal.div (seg δ r (fun e => x (ρ e) k) + x r k) (deg1 δ r) * W k j) + b j) 0

/-- The output layer, scaling by a reciprocal. -/
def outK (δ : Fin E → ℤ) (ρ : Fin E → Fin N) (h : Fin N → Fin K → EReal) (W : Fin K → Fin C → EReal)
    (b : Fin C → EReal) (r : Fin N) (j : Fin C) : EReal :=
  (∑ k, ((seg δ r (fun e => h (ρ e) k) + h r k) * Ideal.div 1 (deg1 δ r)) * W k j) + b j

/-- The output layer, dividing. -/
def outR (δ : Fin E → ℤ) (ρ : Fin E → Fin N) (h : Fin N → Fin K → EReal) (W : Fin K → Fin C → EReal)
    (b : Fin C → EReal) (r : Fin N) (j : Fin C) : EReal :=
  (∑ k, Ideal.div (seg δ r (fun e => h (ρ e) k) + h r k) (deg1 δ r) * W k j) + b j

/-- The normaliser is a real number that is at least one: a count plus one. -/
theorem deg1_real (δ : Fin E → ℤ) (r : Fin N) : ∃ m : ℝ, 1 ≤ m ∧ deg1 δ r = (m : EReal) := by
  unfold deg1 seg
  rw [← Finset.sum_filter, Cert.RowScale.sum_one, zero_add]
  refine ⟨((Finset.univ.filter fun e : Fin E => δ e = (r.val : ℤ)).card : ℝ) + 1, ?_, ?_⟩
  · have : (0 : ℝ) ≤ ((Finset.univ.filter fun e : Fin E => δ e = (r.val : ℤ)).card : ℝ) := Nat.cast_nonneg _
    linarith
  · rw [EReal.coe_add, EReal.coe_one]

theorem one_le_deg1 (δ : Fin E → ℤ) (r : Fin N) : 1 ≤ deg1 δ r := by
  obtain ⟨m, hm, h⟩ := deg1_real δ r
  rw [h, ← EReal.coe_one]
  exact EReal.coe_le_coe_iff.mpr hm

/-- A sum over selected edges of real numbers is the real sum. -/
theorem seg_coe (δ : Fin E → ℤ) (r : Fin N) (f : Fin E → ℝ) :
    seg δ r (fun e => (f e : EReal)) = ((∑ e : Fin E, if δ e = (r.val : ℤ) then f e else 0 : ℝ) : EReal) := by
  unfold seg
  rw [zero_add, LibERealFinite.coe_finset_sum]
  refine Finset.sum_congr rfl fun e _ => ?_
  split <;> simp

/-- Projection commutes with aggregation when all entries are real: the aggregate of the projected rows plus
    the node's own projected row is the projection of the aggregate of the raw rows plus the node's own row. -/
theorem project_aggregate (δ : Fin E → ℤ) (r : Fin N) (xe : Fin E → Fin K → ℝ) (xr : Fin K → ℝ) (w : Fin K → ℝ) :
    seg δ r (fun e => ∑ k, (xe e k : EReal) * (w k : EReal)) + ∑ k, (xr k : EReal) * (w k : EReal)
      = ∑ k, (seg δ r (fun e => (xe e k : EReal)) + (xr k : EReal)) * (w k : EReal) := by
  have hL : (fun e => ∑ k, (xe e k : EReal) * (w k : EReal)) = fun e => ((∑ k, xe e k * w k : ℝ) : EReal) := by
    funext e
    rw [LibERealFinite.coe_finset_sum]
    exact Finset.sum_congr rfl fun k _ => (EReal.coe_mul _ _).symm
  rw [hL, seg_coe]
  have hR : ∀ k, (seg δ r (fun e => (xe e k : EReal)) + (xr k : EReal)) * (w k : EReal)
      = (((∑ e : Fin E, if δ e = (r.val : ℤ) then xe e k else 0) + xr k) * w k : ℝ) := by
    intro k
    rw [seg_coe, ← EReal.coe_add, ← EReal.coe_mul]
  rw [Finset.sum_congr rfl fun k _ => hR k, ← LibERealFinite.coe_finset_sum]
  have hS : ∑ k, (xr k : EReal) * (w k : EReal) = ((∑ k, xr k * w k : ℝ) : EReal) := by
    rw [LibERealFinite.coe_finset_sum]
    exact Finset.sum_congr rfl fun k _ => (EReal.coe_mul _ _).symm
  rw [hS, ← EReal.coe_add]
  refine congrArg _ ?_
  have h1 : ∀ e : Fin E, (if δ e = (r.val : ℤ) then ∑ k, xe e k * w k else 0)
      = ∑ k, (if δ e = (r.val : ℤ) then xe e k else 0) * w k := by
    intro e
    split
    · rfl
    · simp
  rw [Finset.sum_congr rfl fun e _ => h1 e, Finset.sum_comm, ← Finset.sum_add_distrib]
  refine Finset.sum_congr rfl fun k _ => ?_
  rw [add_mul, Finset.sum_mul]

/-- The two arrangements of the hidden layer agree on real-valued features and weights. -/
theorem hid_eq (δ : Fin E → ℤ) (ρ : Fin E → Fin N) (x : Fin N → Fin K → EReal) (W : Fin K → Fin C → EReal)
    (b : Fin C → EReal) (hx : ∀ r k, ∃ a : ℝ, x r k = (a : EReal)) (hW : ∀ k j, ∃ a : ℝ, W k j = (a : EReal)) :
    hidK δ ρ x W b = hidR δ ρ x W b := by
  funext r j
  choose xr hxr using hx
  choose wr hwr using hW
  obtain ⟨m, hm, hd⟩ := deg1_real δ r
  unfold hidK hidR
  rw [hd]
  have hpos : 0 < m := lt_of_lt_of_le one_pos hm
  rw [← Cert.RowScale.dot_mul_inv (fun k => seg δ r (fun e => x (ρ e) k) + x r k) (fun k => W k j) m hpos]
  simp only [hxr, hwr]
  rw [project_aggregate δ r (fun e k => xr (ρ e) k) (fun k => xr r k) (fun k => wr k j)]

/-- The two arrangements of the output layer agree, whatever the entries are. -/
theorem out_eq (δ : Fin E → ℤ) (ρ : Fin E → Fin N) (h : Fin N → Fin K → EReal) (W : Fin K → Fin C → EReal)
    (b : Fin C → EReal) : outK δ ρ h W b = outR δ ρ h W b := by
  funext r j
  unfold outK outR
  refine congrArg (· + b j) (Finset.sum_congr rfl fun k _ => ?_)
  rw [Reciprocal.mul_one_div (one_le_deg1 δ r)]

end Cert.Sage

end
-- ==== Proof.SageIdx.lean ====
/-
  The two readings of an edge list that both arrangements of the graph convolution share.

  An edge's source number is wrapped once (a negative number has the table's length added: indexing from the
  end), read as a signed integer and clamped into the table's rows; its destination number is read as a signed
  integer as it stands.
-/
import proofs.«141278_j91018946937618_2_alg».proof.Proof.LibRowScatter

noncomputable section

namespace Cert.Sage
open Idealize.ShloMosaic Idealize.ShloMosaic.ValueIdx

variable {E : ℕ}

/-- A source number with indexing from the end resolved: a negative number has `n` added. -/
def wrapIdx (n s : BitVec 32) : BitVec 32 := Scalar.select (IntOp.cmpi .slt s 0#32) (IntOp.addi s n) s

/-- The table row edge `e` reads: its wrapped source number, clamped into `[0, N - 1]`. -/
def edgeRow (N : ℕ) (hN : 0 < N) (n : BitVec 32) (src : (⟨1, ![E]⟩ : Shape).Idx → BitVec 32) (e : Fin E) : Fin N :=
  ⟨min (wrapIdx n (src (ix1 e))).toInt.toNat (N - 1), by omega⟩

/-- The node number edge `e` lands on, as an integer. -/
def edgeNode (dst : (⟨1, ![E]⟩ : Shape).Idx → BitVec 32) (e : Fin E) : ℤ := (dst (ix1 e)).toInt

/-- A column of start indices that holds the wrapped source numbers names the rows `edgeRow`. -/
theorem rowAt_eq_edgeRow (N : ℕ) (hN : 0 < N) (n : BitVec 32) (src : (⟨1, ![E]⟩ : Shape).Idx → BitVec 32)
    (idx : IVec ⟨2, ![E, 1]⟩ 32) (h : ∀ e : Fin E, idx (ix2 e (0 : Fin 1)) = wrapIdx n (src (ix1 e))) (e : Fin E) :
    Cert.LibRowScatter.rowAt N hN idx e = edgeRow N hN n src e := by
  exact Fin.ext (congrArg (fun s : BitVec 32 => min s.toInt.toNat (N - 1)) (h e))

end Cert.Sage

end
-- ==== Proof.KHostRead.lean ====
/-
  Three host computations of the message-passing program, read at one entry.

  (1) The reciprocal normaliser. Ones are accumulated over the edges into a zero vector by destination node, one is
      added, and one is divided by the result; kept as a column. Entry (r, 0) is 1 / (in-degree of r plus one).
  (2) The aggregate. Each edge reads the table row its source number names (a negative number counted from the
      end, the result clamped into the table), and the rows are accumulated into a zero table by destination
      node. Entry (r, j) is zero plus the sum, over the edges landing on r, of entry j of the row the edge reads.
  (3) A bias vector laid out as a one-row table: entry (0, j) is entry j of the vector.
-/
import proofs.«141278_j91018946937618_2_alg».proof.KernelIdeal
import proofs.«141278_j91018946937618_2_alg».proof.Proof.Gen.KernelIdeal
import proofs.«141278_j91018946937618_2_alg».proof.Proof.LibRowScatter
import proofs.«141278_j91018946937618_2_alg».proof.Proof.LibVecScatter
import proofs.«141278_j91018946937618_2_alg».proof.Proof.LibRowScale
import proofs.«141278_j91018946937618_2_alg».proof.Proof.LibSpreadRow
import proofs.«141278_j91018946937618_2_alg».proof.Proof.LibColumn
import proofs.«141278_j91018946937618_2_alg».proof.Proof.SageSpec
import proofs.«141278_j91018946937618_2_alg».proof.Proof.SageIdx
import Idealize.ShloMosaic.Lib.ValueIdx
import Idealize.ShloMosaic.Lib.Pipeline.Value
import Idealize.ShloMosaic.PureOps.Ideal.Laws

noncomputable section

open scoped BigOperators

namespace Cert.KernelIdeal.HostRead
open Cert.KernelIdeal Idealize.ShloMosaic Idealize.ShloMosaic.ValueIdx
open Cert.KernelIdeal.Gen

/-! ## Small readings -/

/-- A vector of E entries laid out as a column [E, 1] reads, at (e, 0), the vector's entry e. -/
theorem column_apply {α : Type} {E : ℕ} (v : (⟨1, ![E]⟩ : Shape).Idx → α)
    (h : (⟨1, ![E]⟩ : Shape).BroadcastsInDim ⟨2, ![E, 1]⟩ ![0]) (e : Fin E) :
    broadcastInDim ⟨2, ![E, 1]⟩ ![0] h v (ix2 e (0 : Fin 1)) = v (ix1 e) := by
  refine broadcastInDim_apply ![0] h v (ix2 e (0 : Fin 1)) (ix1 e) fun a => ?_
  match a with
  | ⟨0, _⟩ =>
    show e.val = if E = 1 then 0 else e.val
    split
    · have := e.isLt; omega
    · rfl

/-- The host's quotient of two arrays is taken entry by entry. -/
theorem host_divf_apply {s : Shape} {φ : FTy} (x y : FVec Ideal s φ) (i : s.Idx) :
    Host.divf x y i = Ideal.div (x i) (y i) := rfl

/-- The accumulation into a vector is the exact sum, with the vector scatter's dimension numbers. -/
theorem vecScatter_eq (x : FVec Ideal S50000 .f32) (idx : IVec S1000000x1 32) (upd : FVec Ideal S1000000 .f32) :
    Host.scatterAdd (F := Ideal) scatter_S50000_S1000000x1_S1000000_n_0_0_1 x idx upd
      = Ideal.hostScatterAdd
          (Cert.LibVecScatter.vecScatterDims 50000 1000000 scatter_S50000_S1000000x1_S1000000_n_0_0_1_wf) x idx upd := rfl

/-- The accumulation into a table is the exact sum, with the row scatter's dimension numbers. -/
theorem rowScatter_eq (x : FVec Ideal S50000x16 .f32) (idx : IVec S1000000x1 32) (upd : FVec Ideal S1000000x16 .f32) :
    Host.scatterAdd (F := Ideal) scatter_S50000x16_S1000000x1_S1000000x16_1_0_0_1 x idx upd
      = Ideal.hostScatterAdd
          (Cert.LibRowScatter.rowScatterDims 50000 1000000 16 scatter_S50000x16_S1000000x1_S1000000x16_1_0_0_1_wf)
          x idx upd := rfl

/-- The gather of table rows has the row gather's dimension numbers. -/
theorem rowGather_eq (x : S50000x16.Idx → EReal) (idx : IVec S1000000x1 32) :
    Host.gather gather_S50000x16_S1000000x1_S1000000x16_1_0_n_n_0_1_116 x idx
      = Host.gather
          (Cert.LibRowScatter.rowGatherDims 50000 1000000 16 gather_S50000x16_S1000000x1_S1000000x16_1_0_n_n_0_1_116_wf)
          x idx := rfl

/-! ## The three readings -/

/-- The reciprocal normaliser at node r: one over the in-degree of r plus one. -/
theorem invdeg_apply (dst : IVec S1000000 32) (r : Fin 50000) :
    shapeCast S50000x1
        (Host.divf (F := Ideal) (broadcastInDim S50000 ![] bcast_S_S50000 (constant S_ .f32 0x3F800000#32))
          (addf
            (Host.scatterAdd scatter_S50000_S1000000x1_S1000000_n_0_0_1
              (broadcastInDim S50000 ![] bcast_S_S50000 (constant S_ .f32 0x00000000#32))
              (broadcastInDim S1000000x1 ![0] bcast_S1000000_S1000000x1_0 dst)
              (broadcastInDim S1000000 ![] bcast_S_S1000000 (constant S_ .f32 0x3F800000#32)))
            (broadcastInDim S50000 ![] bcast_S_S50000 (constant S_ .f32 0x3F800000#32))))
        shapeCasts_S50000_S50000x1 (ix2 r (0 : Fin 1))
      = Ideal.div 1 (Cert.Sage.deg1 (Cert.Sage.edgeNode dst) r) := by
  have h1 : broadcastInDim S50000 ![] bcast_S_S50000 (constant (F := Ideal) S_ .f32 0x3F800000#32) (ix1 r) = 1 := by
    rw [Cert.LibSpreadRow.spread_const_apply, Cert.RowScale.ofBits_one_f32]
  have h0 : broadcastInDim S50000 ![] bcast_S_S50000 (constant (F := Ideal) S_ .f32 0x00000000#32) (ix1 r) = 0 := by
    rw [Cert.LibSpreadRow.spread_const_apply, Ideal.ofBits_zero_f32]
  have hs : ∀ e : Fin 1000000,
      (if (broadcastInDim S1000000x1 ![0] bcast_S1000000_S1000000x1_0 dst (ix2 e (0 : Fin 1))).toInt = (r.val : ℤ)
        then broadcastInDim S1000000 ![] bcast_S_S1000000 (constant (F := Ideal) S_ .f32 0x3F800000#32) (ix1 e) else 0)
        = if (dst (ix1 e)).toInt = (r.val : ℤ) then (1 : EReal) else 0 := by
    intro e
    rw [column_apply, Cert.LibSpreadRow.spread_const_apply, Cert.RowScale.ofBits_one_f32]
  rw [Cert.LibColumn.shapeCast_a_a1_apply, host_divf_apply, addf_apply, vecScatter_eq,
    Cert.LibVecScatter.scatterAdd_vec_apply, h1, h0, Finset.sum_congr rfl (fun e _ => hs e)]
  rfl

/-- The aggregate at (r, j): zero plus the sum, over the edges landing on r, of entry j of the row the edge reads. -/
theorem agg_apply (X : S50000x16.Idx → EReal) (src dst : IVec S1000000 32) (r : Fin 50000) (j : Fin 16) :
    Host.scatterAdd (F := Ideal) scatter_S50000x16_S1000000x1_S1000000x16_1_0_0_1
        (broadcastInDim S50000x16 ![] bcast_S_S50000x16 (constant S_ .f32 0x00000000#32))
        (broadcastInDim S1000000x1 ![0] bcast_S1000000_S1000000x1_0 dst)
        (Host.gather gather_S50000x16_S1000000x1_S1000000x16_1_0_n_n_0_1_116 X
          (broadcastInDim S1000000x1 ![0] bcast_S1000000_S1000000x1_0
            (select (cmpi .slt src (broadcastInDim S1000000 ![] bcast_S_S1000000 (constantI S_ 32 0#32)))
              (addi src (broadcastInDim S1000000 ![] bcast_S_S1000000 (constantI S_ 32 50000#32))) src)))
        (ix2 r j)
      = Cert.Sage.seg (Cert.Sage.edgeNode dst) r (fun e => X (ix2 (Cert.Sage.edgeRow 50000 (by decide) 50000#32 src e) j)) := by
  -- the column of start indices holds the wrapped source numbers
  have hw : ∀ e : Fin 1000000,
      broadcastInDim S1000000x1 ![0] bcast_S1000000_S1000000x1_0
          (select (cmpi .slt src (broadcastInDim S1000000 ![] bcast_S_S1000000 (constantI S_ 32 0#32)))
            (addi src (broadcastInDim S1000000 ![] bcast_S_S1000000 (constantI S_ 32 50000#32))) src) (ix2 e (0 : Fin 1))
        = Cert.Sage.wrapIdx 50000#32 (src (ix1 e)) := by
    intro e
    rw [column_apply]
    rfl
  have h0 : broadcastInDim S50000x16 ![] bcast_S_S50000x16 (constant (F := Ideal) S_ .f32 0x00000000#32) (ix2 r j) = 0 := by
    rw [Cert.LibSpreadRow.spread_const_apply, Ideal.ofBits_zero_f32]
  rw [rowScatter_eq, Cert.LibRowScatter.scatterAdd_rows_apply, rowGather_eq, h0]
  unfold Cert.Sage.seg
  refine congrArg (fun s : EReal => 0 + s) (Finset.sum_congr rfl fun e _ => ?_)
  rw [column_apply, Cert.LibRowScatter.gather_rows_apply (by decide : 0 < 50000),
    Cert.Sage.rowAt_eq_edgeRow 50000 (by decide) 50000#32 src _ hw]
  rfl

/-- A bias vector as a one-row table, at (0, j): entry j of the vector. -/
theorem bias_row_apply (b : S16.Idx → EReal) (j : Fin 16) :
    shapeCast S1x16 b shapeCasts_S16_S1x16 (ix2 (0 : Fin 1) j) = b (ix1 j) :=
  Cert.LibSpreadRow.reshape_row_apply b shapeCasts_S16_S1x16 j

end Cert.KernelIdeal.HostRead

end
-- ==== Proof.KSpec.lean ====
/-
  The kernel's closed term, entry by entry, is the specification's first arrangement.

  Entry (r, j) of the hidden layer reads the aggregated projected rows, the node's own projected row, the reciprocal
  normaliser and the bias at their entries: it is  max ((seg (p ∘ ρ) + p) · (1 / deg1) + b1, 0)  with p = x · W1 —
  the specification's hidK. Entry (r, j) of the result reads row r of the aggregated hidden rows and of the hidden
  layer itself: it is the specification's outK over that hidden layer.
-/
import proofs.«141278_j91018946937618_2_alg».proof.Proof.KChain
import proofs.«141278_j91018946937618_2_alg».proof.Proof.KHostRead
import proofs.«141278_j91018946937618_2_alg».proof.Proof.SageSpec
import proofs.«141278_j91018946937618_2_alg».proof.Proof.SageIdx

set_option maxRecDepth 16384

noncomputable section

open scoped BigOperators

namespace Cert.KernelIdeal.Spec

open Cert.KernelIdeal Cert.KernelIdeal.Gen Cert.KernelIdeal.Terms Cert.KernelIdeal.Chain
open Idealize.ShloMosaic Idealize.ShloMosaic.ValueIdx

/-- Entry (r, j) of the hidden layer is the specification's. -/
theorem hidden_apply (x : S50000x64.Idx → EReal) (w1 : S64x16.Idx → EReal) (b1 : S16.Idx → EReal) (src dst : IVec S1000000 32)
    (r : Fin 50000) (j : Fin 16) :
    Chain.hidden x w1 b1 src dst (ix2 r j)
      = Cert.Sage.hidK (Cert.Sage.edgeNode dst) (Cert.Sage.edgeRow 50000 (by decide) 50000#32 src)
          (fun r k => x (ix2 r k)) (fun k j => w1 (ix2 k j)) (fun j => b1 (ix1 j)) r j := by
  unfold Chain.hidden
  rw [Normalize.G_apply]
  rw [show aggRows (Project.G x w1) src dst (ix2 r j) = _ from HostRead.agg_apply (Project.G x w1) src dst r j,
    show invdegCol dst (ix2 r (0 : Fin 1)) = _ from HostRead.invdeg_apply dst r,
    show biasRow b1 (ix2 (0 : Fin 1) j) = _ from HostRead.bias_row_apply b1 j]
  simp only [Project.G_apply]
  rfl

/-- Entry (r, j) of the result is the specification's, over the specification's hidden layer. -/
theorem output_apply (x : S50000x64.Idx → EReal) (w1 : S64x16.Idx → EReal) (b1 : S16.Idx → EReal)
    (w2 : S16x16.Idx → EReal) (b2 : S16.Idx → EReal) (src dst : IVec S1000000 32) (r : Fin 50000) (j : Fin 16) :
    Chain.output x w1 b1 w2 b2 src dst (ix2 r j)
      = Cert.Sage.outK (Cert.Sage.edgeNode dst) (Cert.Sage.edgeRow 50000 (by decide) 50000#32 src)
          (Cert.Sage.hidK (Cert.Sage.edgeNode dst) (Cert.Sage.edgeRow 50000 (by decide) 50000#32 src)
            (fun r k => x (ix2 r k)) (fun k j => w1 (ix2 k j)) (fun j => b1 (ix1 j)))
          (fun k j => w2 (ix2 k j)) (fun j => b2 (ix1 j)) r j := by
  unfold Chain.output
  rw [Combine.G_apply]
  rw [show invdegCol dst (ix2 r (0 : Fin 1)) = _ from HostRead.invdeg_apply dst r,
    show biasRow b2 (ix2 (0 : Fin 1) j) = _ from HostRead.bias_row_apply b2 j]
  unfold Cert.Sage.outK
  refine congrArg (· + b2 (ix1 j)) (Finset.sum_congr rfl fun k _ => ?_)
  rw [show aggRows (Chain.hidden x w1 b1 src dst) src dst (ix2 r k) = _ from HostRead.agg_apply (Chain.hidden x w1 b1 src dst) src dst r k]
  simp only [hidden_apply]

end Cert.KernelIdeal.Spec

end
-- ==== Proof.RefValue.lean ====
/-
  The reference arrangement of the two-layer graph convolution, read entry by entry.

  Each layer aggregates the rows named by the edges into the nodes the edges land on, adds the node's own row,
  divides by the in-degree plus one, multiplies by the weight matrix and adds the bias; the first layer then takes
  the maximum with zero. Stage by stage the program's arrays are read at one entry: the index columns hold the
  wrapped source numbers and the destination numbers, the count vector holds the in-degree plus one, the
  accumulated table holds the edge sum of the gathered rows, and the two layers are the functions hidR and outR of
  the specification. The second layer is read over an arbitrary hidden table, so that the first layer's value is
  used only through its own entry formula.
-/
import proofs.«141278_j91018946937618_2_alg».proof.Proof.Gen.ReferenceIdeal.Read
import proofs.«141278_j91018946937618_2_alg».proof.Proof.LibRowScatter
import proofs.«141278_j91018946937618_2_alg».proof.Proof.LibVecScatter
import proofs.«141278_j91018946937618_2_alg».proof.Proof.LibDenseEntry
import proofs.«141278_j91018946937618_2_alg».proof.Proof.LibRowScale
import proofs.«141278_j91018946937618_2_alg».proof.Proof.SageSpec
import proofs.«141278_j91018946937618_2_alg».proof.Proof.SageIdx
import Idealize.ShloMosaic.Lib.ValueIdx
import Idealize.ShloMosaic.PureOps.Ideal.Laws

set_option maxRecDepth 16384

noncomputable section

open scoped BigOperators

namespace Cert.RefValue

open Idealize.ShloMosaic Idealize.ShloMosaic.ValueIdx
open Cert.ReferenceIdeal Cert.ReferenceIdeal.Read

/-! ## The index columns -/

/-- The column of start indices built from the source numbers holds, at edge e, the wrapped source number. -/
theorem src_col_v5 (x5 : IVec S1000000 32) (e : Fin 1000000) :
    val_main_v5 (F := Ideal) x5 (ix2 e (0 : Fin 1)) = Cert.Sage.wrapIdx 50000#32 (x5 (ix1 e)) := by
  rw [val_main_v5_apply, val_main_v4_apply, val_main_v1_apply, val_main_v3_apply, val_main_v0_apply,
    val_main_v2_apply, val_main_c_apply, val_main_c_0_apply]
  have hi : idx_main_v5 (ix2 e (0 : Fin 1)) = ix1 e := funext fun a => by
    match a with
    | ⟨0, _⟩ => rfl
  rw [hi]
  rfl

/-- The second layer's copy of the same column. -/
theorem src_col_v30 (x5 : IVec S1000000 32) (e : Fin 1000000) :
    val_main_v30 (F := Ideal) x5 (ix2 e (0 : Fin 1)) = Cert.Sage.wrapIdx 50000#32 (x5 (ix1 e)) := by
  rw [val_main_v30_apply, val_main_v29_apply, val_main_v26_apply, val_main_v28_apply, val_main_v25_apply,
    val_main_v27_apply, val_main_c_4_apply, val_main_c_5_apply]
  have hi : idx_main_v30 (ix2 e (0 : Fin 1)) = ix1 e := funext fun a => by
    match a with
    | ⟨0, _⟩ => rfl
  rw [hi]
  rfl

/-- The column built from the destination numbers holds, at edge e, the destination number; four copies. -/
theorem dst_col_v8 (x6 : IVec S1000000 32) (e : Fin 1000000) :
    val_main_v8 (F := Ideal) x6 (ix2 e (0 : Fin 1)) = x6 (ix1 e) := by
  rw [val_main_v8_apply]
  exact congrArg x6 (funext fun a => by
    match a with
    | ⟨0, _⟩ => rfl)

theorem dst_col_v12 (x6 : IVec S1000000 32) (e : Fin 1000000) :
    val_main_v12 (F := Ideal) x6 (ix2 e (0 : Fin 1)) = x6 (ix1 e) := by
  rw [val_main_v12_apply]
  exact congrArg x6 (funext fun a => by
    match a with
    | ⟨0, _⟩ => rfl)

theorem dst_col_v33 (x6 : IVec S1000000 32) (e : Fin 1000000) :
    val_main_v33 (F := Ideal) x6 (ix2 e (0 : Fin 1)) = x6 (ix1 e) := by
  rw [val_main_v33_apply]
  exact congrArg x6 (funext fun a => by
    match a with
    | ⟨0, _⟩ => rfl)

theorem dst_col_v37 (x6 : IVec S1000000 32) (e : Fin 1000000) :
    val_main_v37 (F := Ideal) x6 (ix2 e (0 : Fin 1)) = x6 (ix1 e) := by
  rw [val_main_v37_apply]
  exact congrArg x6 (funext fun a => by
    match a with
    | ⟨0, _⟩ => rfl)

/-! ## The constant splats -/

theorem zero_v7 (i : S50000x64.Idx) : val_main_v7 (F := Ideal) i = 0 := by
  rw [val_main_v7_apply, val_main_cst_apply, Ideal.ofBits_def, Ideal.ofBits_zero_f32]

theorem zero_v32 (i : S50000x16.Idx) : val_main_v32 (F := Ideal) i = 0 := by
  rw [val_main_v32_apply, val_main_cst_6_apply, Ideal.ofBits_def, Ideal.ofBits_zero_f32]

theorem zero_v11 (i : S50000.Idx) : val_main_v11 (F := Ideal) i = 0 := by
  rw [val_main_v11_apply, val_main_cst_2_apply, Ideal.ofBits_def, Ideal.ofBits_zero_f32]

theorem zero_v36 (i : S50000.Idx) : val_main_v36 (F := Ideal) i = 0 := by
  rw [val_main_v36_apply, val_main_cst_8_apply, Ideal.ofBits_def, Ideal.ofBits_zero_f32]

theorem zero_call0_v0 (i : S50000x16.Idx) : val_main_call0_v0 (F := Ideal) i = 0 := by
  rw [val_main_call0_v0_apply, val_main_call0_cst_apply, Ideal.ofBits_def, Ideal.ofBits_zero_f32]

theorem one_v10 (i : S1000000.Idx) : val_main_v10 (F := Ideal) i = 1 := by
  rw [val_main_v10_apply, val_main_cst_1_apply, Ideal.ofBits_def, Cert.RowScale.ofBits_one_f32]

theorem one_v35 (i : S1000000.Idx) : val_main_v35 (F := Ideal) i = 1 := by
  rw [val_main_v35_apply, val_main_cst_7_apply, Ideal.ofBits_def, Cert.RowScale.ofBits_one_f32]

theorem one_v15 (i : S50000.Idx) : val_main_v15 (F := Ideal) i = 1 := by
  rw [val_main_v15_apply, val_main_cst_3_apply, Ideal.ofBits_def, Cert.RowScale.ofBits_one_f32]

theorem one_v40 (i : S50000.Idx) : val_main_v40 (F := Ideal) i = 1 := by
  rw [val_main_v40_apply, val_main_cst_9_apply, Ideal.ofBits_def, Cert.RowScale.ofBits_one_f32]

/-! ## The in-degree plus one -/

/-- Accumulating ones from a zero vector along a column that holds the destination numbers, then adding one, is
    the in-degree plus one. -/
theorem count_plus_one
    (wf : ScatterDims.WF ⟨1, ![50000]⟩ ⟨2, ![1000000, 1]⟩ ⟨1, ![1000000]⟩ [] [0] [0] 1)
    (z : (⟨1, ![50000]⟩ : Shape).Idx → EReal) (hz : ∀ i, z i = 0)
    (u : (⟨1, ![1000000]⟩ : Shape).Idx → EReal) (hu : ∀ i, u i = 1)
    (dst : IVec ⟨1, ![1000000]⟩ 32) (cd : IVec ⟨2, ![1000000, 1]⟩ 32)
    (hcd : ∀ e : Fin 1000000, cd (ix2 e (0 : Fin 1)) = dst (ix1 e)) (r : Fin 50000) :
    Ideal.hostScatterAdd (Cert.LibVecScatter.vecScatterDims 50000 1000000 wf) z cd u (ix1 r) + 1
      = Cert.Sage.deg1 (Cert.Sage.edgeNode dst) r := by
  rw [Cert.LibVecScatter.scatterAdd_vec_apply, hz]
  unfold Cert.Sage.deg1 Cert.Sage.seg Cert.Sage.edgeNode
  refine congrArg (fun t : EReal => 0 + t + 1) (Finset.sum_congr rfl fun e _ => ?_)
  rw [hcd e, hu]

/-! ## The host operations of the program as the functions the entry lemmas read

Each is an identity of the printed operation with the library's function at its dimension record, stated over
arbitrary operands. -/

theorem vecScatter_eq (x : FVec Ideal S50000 .f32) (idx : IVec S1000000x1 32) (upd : FVec Ideal S1000000 .f32) :
    Host.scatterAdd scatter_S50000_S1000000x1_S1000000_n_0_0_1 x idx upd
      = Ideal.hostScatterAdd (Cert.LibVecScatter.vecScatterDims 50000 1000000 Facts₀.scatter_S50000_S1000000x1_S1000000_n_0_0_1_wf) x idx upd := rfl

theorem rowScatter64_eq (x : FVec Ideal S50000x64 .f32) (idx : IVec S1000000x1 32) (upd : FVec Ideal S1000000x64 .f32) :
    Host.scatterAdd scatter_S50000x64_S1000000x1_S1000000x64_1_0_0_1 x idx upd
      = Ideal.hostScatterAdd (Cert.LibRowScatter.rowScatterDims 50000 1000000 64 Facts₀.scatter_S50000x64_S1000000x1_S1000000x64_1_0_0_1_wf) x idx upd := rfl

theorem rowScatter16_eq (x : FVec Ideal S50000x16 .f32) (idx : IVec S1000000x1 32) (upd : FVec Ideal S1000000x16 .f32) :
    Host.scatterAdd scatter_S50000x16_S1000000x1_S1000000x16_1_0_0_1 x idx upd
      = Ideal.hostScatterAdd (Cert.LibRowScatter.rowScatterDims 50000 1000000 16 Facts₀.scatter_S50000x16_S1000000x1_S1000000x16_1_0_0_1_wf) x idx upd := rfl

theorem rowGather64_eq (x : FVec Ideal S50000x64 .f32) (idx : IVec S1000000x1 32) :
    Host.gather gather_S50000x64_S1000000x1_S1000000x64_1_0_n_n_0_1_164 x idx
      = Host.gather (Cert.LibRowScatter.rowGatherDims 50000 1000000 64 Facts₀.gather_S50000x64_S1000000x1_S1000000x64_1_0_n_n_0_1_164_wf) x idx := rfl

theorem rowGather16_eq (x : FVec Ideal S50000x16 .f32) (idx : IVec S1000000x1 32) :
    Host.gather gather_S50000x16_S1000000x1_S1000000x16_1_0_n_n_0_1_116 x idx
      = Host.gather (Cert.LibRowScatter.rowGatherDims 50000 1000000 16 Facts₀.gather_S50000x16_S1000000x1_S1000000x16_1_0_n_n_0_1_116_wf) x idx := rfl

/-! The stages that gather or accumulate, as those operations of the stages before them. -/

theorem v13_def (x6 : IVec S1000000 32) :
    val_main_v13 (F := Ideal) x6 = Host.scatterAdd (F := Ideal) (φ := .f32) scatter_S50000_S1000000x1_S1000000_n_0_0_1
      (val_main_v11 (F := Ideal)) (val_main_v12 (F := Ideal) x6) (val_main_v10 (F := Ideal)) := rfl

theorem v38_def (x6 : IVec S1000000 32) :
    val_main_v38 (F := Ideal) x6 = Host.scatterAdd (F := Ideal) (φ := .f32) scatter_S50000_S1000000x1_S1000000_n_0_0_1
      (val_main_v36 (F := Ideal)) (val_main_v37 (F := Ideal) x6) (val_main_v35 (F := Ideal)) := rfl

theorem v6_def (x0 : FVec Ideal S50000x64 .f32) (x5 : IVec S1000000 32) :
    val_main_v6 (F := Ideal) x0 x5
      = Host.gather (α := Ideal .f32) gather_S50000x64_S1000000x1_S1000000x64_1_0_n_n_0_1_164 x0
          (val_main_v5 (F := Ideal) x5) := rfl

theorem v9_def (x0 : FVec Ideal S50000x64 .f32) (x5 x6 : IVec S1000000 32) :
    val_main_v9 (F := Ideal) x0 x5 x6
      = Host.scatterAdd (F := Ideal) (φ := .f32) scatter_S50000x64_S1000000x1_S1000000x64_1_0_0_1
          (val_main_v7 (F := Ideal)) (val_main_v8 (F := Ideal) x6) (val_main_v6 (F := Ideal) x0 x5) := rfl

theorem v31_def (x0 : FVec Ideal S50000x64 .f32) (x1 : FVec Ideal S64x16 .f32) (x2 : FVec Ideal S16 .f32)
    (x5 x6 : IVec S1000000 32) :
    val_main_v31 (F := Ideal) x0 x1 x2 x5 x6
      = Host.gather (α := Ideal .f32) gather_S50000x16_S1000000x1_S1000000x16_1_0_n_n_0_1_116
          (val_main_v24 (F := Ideal) x0 x1 x2 x5 x6) (val_main_v30 (F := Ideal) x5) := rfl

theorem v34_def (x0 : FVec Ideal S50000x64 .f32) (x1 : FVec Ideal S64x16 .f32) (x2 : FVec Ideal S16 .f32)
    (x5 x6 : IVec S1000000 32) :
    val_main_v34 (F := Ideal) x0 x1 x2 x5 x6
      = Host.scatterAdd (F := Ideal) (φ := .f32) scatter_S50000x16_S1000000x1_S1000000x16_1_0_0_1
          (val_main_v32 (F := Ideal)) (val_main_v33 (F := Ideal) x6) (val_main_v31 (F := Ideal) x0 x1 x2 x5 x6) := rfl

/-! ## The count vector and its broadcasts -/

theorem deg_v16 (x6 : IVec S1000000 32) (r : Fin 50000) :
    val_main_v16 (F := Ideal) x6 (ix1 r) = Cert.Sage.deg1 (Cert.Sage.edgeNode x6) r := by
  rw [val_main_v16_apply, Ideal.addf_def, one_v15, v13_def, vecScatter_eq]
  exact count_plus_one _ _ zero_v11 _ one_v10 x6 _ (dst_col_v12 x6) r

theorem deg_v41 (x6 : IVec S1000000 32) (r : Fin 50000) :
    val_main_v41 (F := Ideal) x6 (ix1 r) = Cert.Sage.deg1 (Cert.Sage.edgeNode x6) r := by
  rw [val_main_v41_apply, Ideal.addf_def, one_v40, v38_def, vecScatter_eq]
  exact count_plus_one _ _ zero_v36 _ one_v35 x6 _ (dst_col_v37 x6) r

theorem deg_v18 (x6 : IVec S1000000 32) (r : Fin 50000) (k : Fin 64) :
    val_main_v18 (F := Ideal) x6 (ix2 r k) = Cert.Sage.deg1 (Cert.Sage.edgeNode x6) r := by
  rw [val_main_v18_apply, val_main_v17_apply]
  have hi : idx_main_v17 (idx_main_v18 (ix2 r k)) = ix1 r := funext fun a => by
    match a with
    | ⟨0, _⟩ => rfl
  rw [hi, deg_v16]

theorem deg_v43 (x6 : IVec S1000000 32) (r : Fin 50000) (k : Fin 16) :
    val_main_v43 (F := Ideal) x6 (ix2 r k) = Cert.Sage.deg1 (Cert.Sage.edgeNode x6) r := by
  rw [val_main_v43_apply, val_main_v42_apply]
  have hi : idx_main_v42 (idx_main_v43 (ix2 r k)) = ix1 r := funext fun a => by
    match a with
    | ⟨0, _⟩ => rfl
  rw [hi, deg_v41]

/-! ## The bias rows -/

theorem bias_v22 (x2 : FVec Ideal S16 .f32) (r : Fin 50000) (j : Fin 16) :
    val_main_v22 (F := Ideal) x2 (ix2 r j) = x2 (ix1 j) := by
  rw [val_main_v22_apply, val_main_v21_apply]
  exact congrArg x2 (funext fun a => by
    match a with
    | ⟨0, _⟩ => rfl)

theorem bias_v47 (x4 : FVec Ideal S16 .f32) (r : Fin 50000) (j : Fin 16) :
    val_main_v47 (F := Ideal) x4 (ix2 r j) = x4 (ix1 j) := by
  rw [val_main_v47_apply, val_main_v46_apply]
  exact congrArg x4 (funext fun a => by
    match a with
    | ⟨0, _⟩ => rfl)

/-! ## The edge sum of gathered rows -/

/-- Gathering the rows the wrapped source numbers name and accumulating them, from a zero table, into the rows the
    destination numbers name: entry (r, q) is the edge sum, over the edges landing on r, of the table's entry
    (row read by the edge, q). -/
theorem seg_of_scatter_gather {C : ℕ}
    (wfg : GatherDims.WF ⟨2, ![50000, C]⟩ ⟨2, ![1000000, 1]⟩ ⟨2, ![1000000, C]⟩ [1] [0] [] [0] [] 1 ![1, C])
    (wfs : ScatterDims.WF ⟨2, ![50000, C]⟩ ⟨2, ![1000000, 1]⟩ ⟨2, ![1000000, C]⟩ [1] [0] [0] 1)
    (z : (⟨2, ![50000, C]⟩ : Shape).Idx → EReal) (hz : ∀ i, z i = 0)
    (t : (⟨2, ![50000, C]⟩ : Shape).Idx → EReal)
    (src dst : IVec ⟨1, ![1000000]⟩ 32)
    (ci : IVec ⟨2, ![1000000, 1]⟩ 32)
    (hci : ∀ e : Fin 1000000, ci (ix2 e (0 : Fin 1)) = Cert.Sage.wrapIdx 50000#32 (src (ix1 e)))
    (cd : IVec ⟨2, ![1000000, 1]⟩ 32) (hcd : ∀ e : Fin 1000000, cd (ix2 e (0 : Fin 1)) = dst (ix1 e))
    (r : Fin 50000) (q : Fin C) :
    Ideal.hostScatterAdd (Cert.LibRowScatter.rowScatterDims 50000 1000000 C wfs) z cd
        (Host.gather (Cert.LibRowScatter.rowGatherDims 50000 1000000 C wfg) t ci) (ix2 r q)
      = Cert.Sage.seg (Cert.Sage.edgeNode dst) r
          (fun e => t (ix2 (Cert.Sage.edgeRow 50000 (by decide) 50000#32 src e) q)) := by
  rw [Cert.LibRowScatter.scatterAdd_rows_apply, hz]
  unfold Cert.Sage.seg Cert.Sage.edgeNode
  refine congrArg (fun s : EReal => 0 + s) (Finset.sum_congr rfl fun e _ => ?_)
  rw [hcd e, Cert.LibRowScatter.gather_rows_apply (by decide) wfg,
    Cert.Sage.rowAt_eq_edgeRow 50000 (by decide) 50000#32 src ci hci e]

theorem agg_v9 (x0 : FVec Ideal S50000x64 .f32) (x5 x6 : IVec S1000000 32) (r : Fin 50000) (k : Fin 64) :
    val_main_v9 (F := Ideal) x0 x5 x6 (ix2 r k)
      = Cert.Sage.seg (Cert.Sage.edgeNode x6) r (fun e => x0 (ix2 ((Cert.Sage.edgeRow 50000 (by decide) 50000#32 x5) e) k)) := by
  rw [v9_def, v6_def, rowScatter64_eq, rowGather64_eq]
  exact seg_of_scatter_gather _ _ _ zero_v7 x0 x5 x6 _ (src_col_v5 x5) _ (dst_col_v8 x6) r k

theorem agg_v34 (x0 : FVec Ideal S50000x64 .f32) (x1 : FVec Ideal S64x16 .f32) (x2 : FVec Ideal S16 .f32)
    (x5 x6 : IVec S1000000 32) (r : Fin 50000) (k : Fin 16) :
    val_main_v34 (F := Ideal) x0 x1 x2 x5 x6 (ix2 r k)
      = Cert.Sage.seg (Cert.Sage.edgeNode x6) r (fun e => val_main_v24 (F := Ideal) x0 x1 x2 x5 x6 (ix2 ((Cert.Sage.edgeRow 50000 (by decide) 50000#32 x5) e) k)) := by
  rw [v34_def, v31_def, rowScatter16_eq, rowGather16_eq]
  generalize val_main_v24 (F := Ideal) x0 x1 x2 x5 x6 = h
  exact seg_of_scatter_gather _ _ _ zero_v32 h x5 x6 _ (src_col_v30 x5) _ (dst_col_v33 x6) r k

/-! ## The two layers -/

/-- The specification's hidden layer, spelt out. -/
theorem hidR_apply {E N K C : ℕ} (δ : Fin E → ℤ) (ρ : Fin E → Fin N) (x : Fin N → Fin K → EReal)
    (W : Fin K → Fin C → EReal) (b : Fin C → EReal) (r : Fin N) (j : Fin C) :
    Cert.Sage.hidR δ ρ x W b r j
      = max ((∑ k, Ideal.div (Cert.Sage.seg δ r (fun e => x (ρ e) k) + x r k) (Cert.Sage.deg1 δ r) * W k j) + b j) 0 :=
  rfl

/-- The specification's output layer, spelt out. -/
theorem outR_apply {E N K C : ℕ} (δ : Fin E → ℤ) (ρ : Fin E → Fin N) (h : Fin N → Fin K → EReal)
    (W : Fin K → Fin C → EReal) (b : Fin C → EReal) (r : Fin N) (j : Fin C) :
    Cert.Sage.outR δ ρ h W b r j
      = (∑ k, Ideal.div (Cert.Sage.seg δ r (fun e => h (ρ e) k) + h r k) (Cert.Sage.deg1 δ r) * W k j) + b j :=
  rfl

/-- The first layer's normalised aggregate: the edge sum of the raw rows plus the node's own row, divided by the
    in-degree plus one. -/
theorem div_v19 (x0 : FVec Ideal S50000x64 .f32) (x5 x6 : IVec S1000000 32) (r : Fin 50000) (k : Fin 64) :
    val_main_v19 (F := Ideal) x0 x5 x6 (ix2 r k)
      = Ideal.div (Cert.Sage.seg (Cert.Sage.edgeNode x6) r (fun e => x0 (ix2 ((Cert.Sage.edgeRow 50000 (by decide) 50000#32 x5) e) k)) + x0 (ix2 r k))
          (Cert.Sage.deg1 (Cert.Sage.edgeNode x6) r) := by
  rw [val_main_v19_apply, Ideal.hostDivf_def, val_main_v14_apply, Ideal.addf_def, agg_v9, deg_v18]

/-- The hidden layer of the program is the specification's. -/
theorem hid_v24 (x0 : FVec Ideal S50000x64 .f32) (x1 : FVec Ideal S64x16 .f32) (x2 : FVec Ideal S16 .f32)
    (x5 x6 : IVec S1000000 32) (r : Fin 50000) (j : Fin 16) :
    val_main_v24 (F := Ideal) x0 x1 x2 x5 x6 (ix2 r j)
      = Cert.Sage.hidR (Cert.Sage.edgeNode x6) (Cert.Sage.edgeRow 50000 (by decide) 50000#32 x5)
          (fun r k => x0 (ix2 r k)) (fun k j => x1 (ix2 k j)) (fun j => x2 (ix1 j)) r j := by
  rw [val_main_v24_apply, Ideal.maximumf_def, zero_call0_v0, val_main_v23_apply, Ideal.addf_def,
    val_main_v20_apply, bias_v22, hidR_apply]
  refine congrArg (fun t : EReal => max (t + x2 (ix1 j)) 0) (Finset.sum_congr rfl fun k _ => ?_)
  have hl : lidx_main_v20 (ix2 r j) k = ix2 r k := funext fun a => by
    match a with
    | ⟨0, _⟩ => rfl
    | ⟨1, _⟩ => rfl
  have hr : ridx_main_v20 (ix2 r j) k = ix2 k j := funext fun a => by
    match a with
    | ⟨0, _⟩ => rfl
    | ⟨1, _⟩ => rfl
  rw [hl, hr, div_v19]

/-- The second layer's normalised aggregate, over the hidden table as it stands. -/
theorem div_v44 (x0 : FVec Ideal S50000x64 .f32) (x1 : FVec Ideal S64x16 .f32) (x2 : FVec Ideal S16 .f32)
    (x5 x6 : IVec S1000000 32) (r : Fin 50000) (k : Fin 16) :
    val_main_v44 (F := Ideal) x0 x1 x2 x5 x6 (ix2 r k)
      = Ideal.div (Cert.Sage.seg (Cert.Sage.edgeNode x6) r (fun e => val_main_v24 (F := Ideal) x0 x1 x2 x5 x6 (ix2 ((Cert.Sage.edgeRow 50000 (by decide) 50000#32 x5) e) k))
            + val_main_v24 (F := Ideal) x0 x1 x2 x5 x6 (ix2 r k))
          (Cert.Sage.deg1 (Cert.Sage.edgeNode x6) r) := by
  rw [val_main_v44_apply, Ideal.hostDivf_def, val_main_v39_apply, Ideal.addf_def, agg_v34, deg_v43]

/-- The output of the program is the specification's output layer of the program's hidden table. -/
theorem out_v48 (x0 : FVec Ideal S50000x64 .f32) (x1 : FVec Ideal S64x16 .f32) (x2 : FVec Ideal S16 .f32)
    (x3 : FVec Ideal S16x16 .f32) (x4 : FVec Ideal S16 .f32) (x5 x6 : IVec S1000000 32) (r : Fin 50000) (j : Fin 16) :
    val_main_v48 (F := Ideal) x0 x1 x2 x3 x4 x5 x6 (ix2 r j)
      = Cert.Sage.outR (Cert.Sage.edgeNode x6) (Cert.Sage.edgeRow 50000 (by decide) 50000#32 x5)
          (fun r k => val_main_v24 (F := Ideal) x0 x1 x2 x5 x6 (ix2 r k)) (fun k j => x3 (ix2 k j)) (fun j => x4 (ix1 j)) r j := by
  rw [val_main_v48_apply, Ideal.addf_def, val_main_v45_apply, bias_v47, outR_apply]
  refine congrArg (fun t : EReal => t + x4 (ix1 j)) (Finset.sum_congr rfl fun k _ => ?_)
  have hl : lidx_main_v45 (ix2 r j) k = ix2 r k := funext fun a => by
    match a with
    | ⟨0, _⟩ => rfl
    | ⟨1, _⟩ => rfl
  have hr : ridx_main_v45 (ix2 r j) k = ix2 k j := funext fun a => by
    match a with
    | ⟨0, _⟩ => rfl
    | ⟨1, _⟩ => rfl
  rw [hl, hr, div_v44]

/-! ## The reference program's result -/

/-- Entry (r, j) of the reference program's result is the specification's output layer of its hidden layer. -/
theorem ref_value (x0 : FVec Ideal S50000x64 .f32) (x1 : FVec Ideal S64x16 .f32) (x2 : FVec Ideal S16 .f32)
    (x3 : FVec Ideal S16x16 .f32) (x4 : FVec Ideal S16 .f32) (x5 x6 : IVec S1000000 32) (r : Fin 50000) (j : Fin 16) :
    val_main_v48 (F := Ideal) x0 x1 x2 x3 x4 x5 x6 (ix2 r j)
      = Cert.Sage.outR (Cert.Sage.edgeNode x6) (Cert.Sage.edgeRow 50000 (by decide) 50000#32 x5)
          (Cert.Sage.hidR (Cert.Sage.edgeNode x6) (Cert.Sage.edgeRow 50000 (by decide) 50000#32 x5)
          (fun r k => x0 (ix2 r k)) (fun k j => x1 (ix2 k j)) (fun j => x2 (ix1 j)))
          (fun k j => x3 (ix2 k j)) (fun j => x4 (ix1 j)) r j := by
  have hh : (fun (r : Fin 50000) (k : Fin 16) => val_main_v24 (F := Ideal) x0 x1 x2 x5 x6 (ix2 r k))
      = Cert.Sage.hidR (Cert.Sage.edgeNode x6) (Cert.Sage.edgeRow 50000 (by decide) 50000#32 x5)
          (fun r k => x0 (ix2 r k)) (fun k j => x1 (ix2 k j)) (fun j => x2 (ix1 j)) :=
    funext fun r => funext fun k => hid_v24 x0 x1 x2 x5 x6 r k
  rw [out_v48, hh]

end Cert.RefValue

end
-- ==== Proof.FiniteInputs.lean ====
/-
  From the precondition to real entries.

  The precondition says of each of the five float arguments that every entry x has |x| < +∞, and joins the five
  statements by "and". In the extended reals |x| = max x (-x), and both -∞ and +∞ have |x| = +∞; so an entry with
  |x| < +∞ is a real number. This is read off here for the first two arguments.
-/
import proofs.«141278_j91018946937618_2_alg».proof.Pre_finite_inputs
import Idealize.ShloMosaic.Lib.ReduceAll
import Idealize.ShloMosaic.Lib.ValueIdx
import Idealize.ShloMosaic.PureOps.Ideal

noncomputable section

namespace Cert.FiniteInputs
open Idealize.ShloMosaic Cert.Pre_finite_inputs

/-- The scalar shape has one index. -/
instance : Subsingleton S_.Idx := ⟨fun a b => funext fun d => d.elim0⟩

/-- An extended real whose absolute value max x (-x) is below +∞ is a real number: at -∞ and at +∞ the absolute
    value is +∞ itself. -/
theorem real_of_abs_lt_top (x : EReal) (h : max x (-x) < ⊤) : ∃ r : ℝ, x = (r : EReal) := by
  induction x using EReal.rec with
  | bot => simp at h
  | coe r => exact ⟨r, rfl⟩
  | top => simp at h

/-- The word 0x7F800000 (sign 0, exponent all ones, fraction 0) denotes +∞. -/
theorem inf_word : Ideal.ofBits .f32 0x7F800000#32 = ⊤ := by simp [Ideal.ofBits, Ideal.ieee]

/-- A truth value written as a one-bit word is 1 exactly when it is true. -/
theorem ofBool_eq_one (b : Bool) : BitVec.ofBool b = 1#1 ↔ b = true := by cases b <;> decide

/-- The comparison |x| < +∞ coming out 1 says that x is a real number. -/
theorem real_of_cmp (x : Ideal .f32)
    (h : FloatOps.cmpf (F := Ideal) .olt (FloatOps.hostAbsf x) (FloatOps.ofBits .f32 0x7F800000#32) = 1#1) :
    ∃ r : ℝ, x = (r : EReal) := by
  have h' : Ideal.cmp .olt (max x (-x)) (Ideal.ofBits .f32 0x7F800000#32) = 1#1 := h
  rw [inf_word] at h'
  unfold Ideal.cmp at h'
  rw [ofBool_eq_one, decide_eq_true_eq] at h'
  exact real_of_abs_lt_top x h'

/-- Under the precondition every entry of the first argument and every entry of the second is a real number.
    The precondition's value is ((((A0 ∧ A1) ∧ A2) ∧ A3) ∧ A4) with Ak = "all entries of argument k have |x| < +∞";
    peeling the outer conjunctions leaves A0 and A1, and an "all" that is 1 is 1 at every entry. -/
theorem real_entries [Cert.Pre_finite_inputs.Facts] (a0 : FVec Ideal S50000x64 .f32) (a1 : FVec Ideal S64x16 .f32) (a2 : FVec Ideal S16 .f32)
    (a3 : FVec Ideal S16x16 .f32) (a4 : FVec Ideal S16 .f32) (a5 a6 : IVec S1000000 32)
    (h : fn (F := Ideal) a0 a1 a2 a3 a4 a5 a6 = fun _ => 1#1) :
    (∀ i, ∃ r : ℝ, a0 i = (r : EReal)) ∧ (∀ i, ∃ r : ℝ, a1 i = (r : EReal)) := by
  have e := congrFun h ValueIdx.ix0
  dsimp only [fn, fn_part1] at e
  have e4 : IntOp.andi _ _ = 1#1 := e
  have e3 : IntOp.andi _ _ = 1#1 := (IntOp.andi_eq_one.1 e4).1
  have e2 : IntOp.andi _ _ = 1#1 := (IntOp.andi_eq_one.1 e3).1
  have e1 : IntOp.andi _ _ = 1#1 := (IntOp.andi_eq_one.1 e2).1
  obtain ⟨h0, h1⟩ := IntOp.andi_eq_one.1 e1
  exact ⟨fun i => real_of_cmp (a0 i) (Host.reduce_andi_all _ _ _ _ _ h0 i),
    fun i => real_of_cmp (a1 i) (Host.reduce_andi_all _ _ _ _ _ h1 i)⟩

end Cert.FiniteInputs

end
-- ==== Proof.lean ====
/-
  A two-layer graph convolution (sum over in-neighbours plus the node itself, divided by in-degree plus one, then a
  dense layer; a rectifier after the first layer only) computed in two arrangements, equal over the extended reals
  on finite inputs.

  The reference aggregates the raw feature rows over the edges, divides by the normaliser and multiplies by W1. The
  kernel multiplies by W1 first (a blocked matrix product), aggregates the projected rows, and multiplies by the
  reciprocal of the normaliser; its second layer scales by the reciprocal inside a blocked product with W2. Both
  read an edge's source row through the same wrapped, clamped row number and land it on the same node number, so both
  are sums over the same edges.
    Hidden layer: the product with W1 distributes over the edge sum and the two finite sums change places; this is an
  identity of real numbers, and every entry of the features and of W1 is real by the precondition. The positive real
  factor 1 / (degree + 1) then moves inside the product, as it does for any extended reals.
    Output layer: x · (1 / d) = x / d for a divisor d ≥ 1, whatever x is; nothing else differs.
  Each program's run ends with its result buffer at its closed term of the arguments, the arguments unchanged; the
  word-level kernel and its idealization are the same text, so nothing is owed between them.
-/
import proofs.«141278_j91018946937618_2_alg».proof.Defs
import proofs.«141278_j91018946937618_2_alg».proof.Proof.Gen.Kernel
import proofs.«141278_j91018946937618_2_alg».proof.Proof.Gen.Kernel.Skeleton
import proofs.«141278_j91018946937618_2_alg».proof.Proof.Gen.Kernel.Launch
import proofs.«141278_j91018946937618_2_alg».proof.Proof.Gen.Kernel.Points
import proofs.«141278_j91018946937618_2_alg».proof.Proof.Gen.Kernel.Frame
import proofs.«141278_j91018946937618_2_alg».proof.Proof.Gen.KernelIdeal
import proofs.«141278_j91018946937618_2_alg».proof.Proof.Gen.KernelIdeal.Skeleton
import proofs.«141278_j91018946937618_2_alg».proof.Proof.Gen.KernelIdeal.Launch
import proofs.«141278_j91018946937618_2_alg».proof.Proof.Gen.KernelIdeal.Points
import proofs.«141278_j91018946937618_2_alg».proof.Proof.Gen.KernelIdeal.Frame
import proofs.«141278_j91018946937618_2_alg».proof.Proof.Gen.ReferenceIdeal
import proofs.«141278_j91018946937618_2_alg».proof.Proof.Gen.Pre_finite_inputs
import proofs.«141278_j91018946937618_2_alg».proof.Proof.Gen.ReferenceIdeal.Run
import proofs.«141278_j91018946937618_2_alg».proof.Proof.Gen.ReferenceIdeal.Read
import proofs.«141278_j91018946937618_2_alg».proof.Proof.KernelRun
import proofs.«141278_j91018946937618_2_alg».proof.Proof.KChain
import proofs.«141278_j91018946937618_2_alg».proof.Proof.KSpec
import proofs.«141278_j91018946937618_2_alg».proof.Proof.RefValue
import proofs.«141278_j91018946937618_2_alg».proof.Proof.FiniteInputs
import proofs.«141278_j91018946937618_2_alg».proof.Proof.SageSpec
import Idealize.ShloMosaic.Adequacy
import Idealize.ShloMosaic.Init

set_option maxRecDepth 16384

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The two closed terms are one function of the arguments when the features and the first weights are real. -/
theorem results_agree (x : (⟨2, ![50000, 64]⟩ : Shape).Idx → EReal) (w1 : (⟨2, ![64, 16]⟩ : Shape).Idx → EReal)
    (b1 : (⟨1, ![16]⟩ : Shape).Idx → EReal) (w2 : (⟨2, ![16, 16]⟩ : Shape).Idx → EReal) (b2 : (⟨1, ![16]⟩ : Shape).Idx → EReal)
    (src dst : (⟨1, ![1000000]⟩ : Shape).Idx → BitVec 32)
    (hx : ∀ i, ∃ a : ℝ, x i = (a : EReal)) (hw : ∀ i, ∃ a : ℝ, w1 i = (a : EReal)) :
    Cert.ReferenceIdeal.Read.val_main_v48 (F := Ideal) x w1 b1 w2 b2 src dst = Cert.KernelIdeal.Chain.output x w1 b1 w2 b2 src dst := by
  funext i
  obtain ⟨r, j, rfl⟩ : ∃ (r : Fin 50000) (j : Fin 16), i = ix2 r j := ⟨i 0, i 1, eq_ix2 i⟩
  rw [Cert.RefValue.ref_value, Cert.KernelIdeal.Spec.output_apply, Cert.Sage.out_eq,
    Cert.Sage.hid_eq _ _ _ _ _ (fun r k => hx (ix2 r k)) (fun k j => hw (ix2 k j))]

/-- From memories that agree on the arguments both idealized programs end with the same result. -/
theorem algebraic : Cert.algebraic_KernelIdeal_ReferenceIdeal := by
  intro m ρ m' ρ' hpre hagree
  refine ⟨fun c => Cert.KernelIdeal.Chain.output (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono (fun r h c => ⟨(h c).1.trans (Cert.KernelIdeal.Chain.result m ρ c), (h c).2⟩)
      (Cert.KernelIdeal.RunValue.run_result m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6⟩ := hagree c
    obtain ⟨hx, hw⟩ := Cert.FiniteInputs.real_entries _ _ _ _ _ _ _ (hpre c)
    rw [Cert.ReferenceIdeal.Read.val_main_v48_eq, h0, h1, h2, h3, h4, h5, h6]
    exact results_agree _ _ _ _ _ _ _ hx hw

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
